-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1081344x128 : Shape := ⟨2, ![1081344, 128]⟩
abbrev S1013760 : Shape := ⟨1, ![1013760]⟩
abbrev S61440 : Shape := ⟨1, ![61440]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S1081344x128 : S_.BroadcastsInDim S1081344x128 (![] : Fin 0 → Fin S1081344x128.rank)
  reducesTo_S1081344x128_S_d0_1 : S1081344x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg13 : FVec F S256x64 .f32) (main_arg14 : FVec F S256x64 .f32) (main_arg15 : FVec F S64 .f32) (main_v33 : IVec S_ 1) : IVec S_ 1 :=
  let main_v34 : FVec F S256x64 .f32 := Host.absf main_arg13
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg14
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x64 .f32) (main_arg14 : FVec F S256x64 .f32) (main_arg15 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S1081344x128 .f32) (main_arg1 : IVec S1013760 32) (main_arg2 : IVec S1013760 32) (main_arg3 : IVec S61440 32) (main_arg4 : IVec S61440 32) (main_arg5 : IVec S5120 32) (main_arg6 : IVec S5120 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x64 .f32) (main_arg14 : FVec F S256x64 .f32) (main_arg15 : FVec F S64 .f32) : IVec S_ 1 :=
  let main_v0 : FVec F S1081344x128 .f32 := Host.absf main_arg0
  let main_cst : FVec F S_ .f32 := constant S_ .f32 0x7F800000#32
  let main_v1 : FVec F S1081344x128 .f32 := broadcastInDim S1081344x128 ![] bcast_S_S1081344x128 main_cst
  let main_v2 : IVec S1081344x128 1 := cmpf .olt main_v0 main_v1
  let main_c : IVec S_ 1 := constantI S_ 1 1#1
  let main_v3 : IVec S_ 1 := (fun x v => Host.reduce IntOp.andi x v reducesTo_S1081344x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S1081344x128 : Shape := ⟨2, ![1081344, 128]⟩
abbrev S1013760 : Shape := ⟨1, ![1013760]⟩
abbrev S61440 : Shape := ⟨1, ![61440]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S67584x128 : Shape := ⟨2, ![67584, 128]⟩
abbrev S_ : Shape := ⟨0, ![]⟩
abbrev S1013760x1 : Shape := ⟨2, ![1013760, 1]⟩
abbrev S1013760x128 : Shape := ⟨2, ![1013760, 128]⟩
abbrev S67584 : Shape := ⟨1, ![67584]⟩
abbrev S67584x1 : Shape := ⟨2, ![67584, 1]⟩
abbrev S1x256 : Shape := ⟨2, ![1, 256]⟩
abbrev S67584x256 : Shape := ⟨2, ![67584, 256]⟩
abbrev S2048x128 : Shape := ⟨2, ![2048, 128]⟩
abbrev S2048x1 : Shape := ⟨2, ![2048, 1]⟩
abbrev S2048x256 : Shape := ⟨2, ![2048, 256]⟩
abbrev S6144x256 : Shape := ⟨2, ![6144, 256]⟩
abbrev S61440x1 : Shape := ⟨2, ![61440, 1]⟩
abbrev S61440x256 : Shape := ⟨2, ![61440, 256]⟩
abbrev S6144 : Shape := ⟨1, ![6144]⟩
abbrev S6144x1 : Shape := ⟨2, ![6144, 1]⟩
abbrev S512x256 : Shape := ⟨2, ![512, 256]⟩
abbrev S1024x256 : Shape := ⟨2, ![1024, 256]⟩
abbrev S1024x1 : Shape := ⟨2, ![1024, 1]⟩
abbrev S1024x512 : Shape := ⟨2, ![1024, 512]⟩
abbrev S5120x1 : Shape := ⟨2, ![5120, 1]⟩
abbrev S5120x256 : Shape := ⟨2, ![5120, 256]⟩
abbrev S1024 : Shape := ⟨1, ![1024]⟩
abbrev S512x64 : Shape := ⟨2, ![512, 64]⟩
abbrev S1x64 : Shape := ⟨2, ![1, 64]⟩
abbrev S1024x64 : Shape := ⟨2, ![1024, 64]⟩

abbrev nBuf : Space → Nat
  | .hbm => 111
  | .vmem => 26
  | .smem => 0
  | _ => 0

abbrev bufTy : (tb : Table) → Fin (tcTables nBuf tb) → BufTy
  | .hbm, ⟨0, _⟩ => ⟨S1081344x128, .f32⟩
  | .hbm, ⟨1, _⟩ => ⟨S1013760, .i32⟩
  | .hbm, ⟨2, _⟩ => ⟨S1013760, .i32⟩
  | .hbm, ⟨3, _⟩ => ⟨S61440, .i32⟩
  | .hbm, ⟨4, _⟩ => ⟨S61440, .i32⟩
  | .hbm, ⟨5, _⟩ => ⟨S5120, .i32⟩
  | .hbm, ⟨6, _⟩ => ⟨S5120, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x64, .f32⟩
  | .hbm, ⟨14, _⟩ => ⟨S256x64, .f32⟩
  | .hbm, ⟨15, _⟩ => ⟨S64, .f32⟩
  | .hbm, ⟨16, _⟩ => ⟨S67584x128, .f32⟩
  | .hbm, ⟨17, _⟩ => ⟨S_, .i32⟩
  | .hbm, ⟨18, _⟩ => ⟨S1013760, .i32⟩
  | .hbm, ⟨19, _⟩ => ⟨S1013760, .i1⟩
  | .hbm, ⟨20, _⟩ => ⟨S_, .i32⟩
  | .hbm, ⟨21, _⟩ => ⟨S1013760, .i32⟩
  | .hbm, ⟨22, _⟩ => ⟨S1013760, .i32⟩
  | .hbm, ⟨23, _⟩ => ⟨S1013760, .i32⟩
  | .hbm, ⟨24, _⟩ => ⟨S1013760x1, .i32⟩
  | .hbm, ⟨25, _⟩ => ⟨S1013760x128, .f32⟩
  | .hbm, ⟨26, _⟩ => ⟨S_, .f32⟩
  | .hbm, ⟨27, _⟩ => ⟨S67584x128, .f32⟩
  | .hbm, ⟨28, _⟩ => ⟨S1013760x1, .i32⟩
  | .hbm, ⟨29, _⟩ => ⟨S67584x128, .f32⟩
  | .hbm, ⟨30, _⟩ => ⟨S_, .f32⟩
  | .hbm, ⟨31, _⟩ => ⟨S1013760, .f32⟩
  | .hbm, ⟨32, _⟩ => ⟨S_, .f32⟩
  | .hbm, ⟨33, _⟩ => ⟨S67584, .f32⟩
  | .hbm, ⟨34, _⟩ => ⟨S1013760x1, .i32⟩
  | .hbm, ⟨35, _⟩ => ⟨S67584, .f32⟩
  | .hbm, ⟨36, _⟩ => ⟨S_, .f32⟩
  | .hbm, ⟨37, _⟩ => ⟨S67584, .f32⟩
  | .hbm, ⟨38, _⟩ => ⟨S67584, .f32⟩
  | .hbm, ⟨39, _⟩ => ⟨S_, .f32⟩
  | .hbm, ⟨40, _⟩ => ⟨S67584, .f32⟩
  | .hbm, ⟨41, _⟩ => ⟨S67584, .f32⟩
  | .hbm, ⟨42, _⟩ => ⟨S67584x1, .f32⟩
  | .hbm, ⟨43, _⟩ => ⟨S256x256, .f32⟩
  | .hbm, ⟨44, _⟩ => ⟨S256x256, .bf16⟩
  | .hbm, ⟨45, _⟩ => ⟨S1x256, .f32⟩
  | .hbm, ⟨46, _⟩ => ⟨S67584x256, .bf16⟩
  | .hbm, ⟨47, _⟩ => ⟨S6144x256, .bf16⟩
  | .hbm, ⟨48, _⟩ => ⟨S_, .i32⟩
  | .hbm, ⟨49, _⟩ => ⟨S61440, .i32⟩
  | .hbm, ⟨50, _⟩ => ⟨S61440, .i1⟩
  | .hbm, ⟨51, _⟩ => ⟨S_, .i32⟩
  | .hbm, ⟨52, _⟩ => ⟨S61440, .i32⟩
  | .hbm, ⟨53, _⟩ => ⟨S61440, .i32⟩
  | .hbm, ⟨54, _⟩ => ⟨S61440, .i32⟩
  | .hbm, ⟨55, _⟩ => ⟨S61440x1, .i32⟩
  | .hbm, ⟨56, _⟩ => ⟨S61440x256, .bf16⟩
  | .hbm, ⟨57, _⟩ => ⟨S61440x256, .f32⟩
  | .hbm, ⟨58, _⟩ => ⟨S_, .f32⟩
  | .hbm, ⟨59, _⟩ => ⟨S6144x256, .f32⟩
  | .hbm, ⟨60, _⟩ => ⟨S61440x1, .i32⟩
  | .hbm, ⟨61, _⟩ => ⟨S6144x256, .f32⟩
  | .hbm, ⟨62, _⟩ => ⟨S_, .f32⟩
  | .hbm, ⟨63, _⟩ => ⟨S61440, .f32⟩
  | .hbm, ⟨64, _⟩ => ⟨S_, .f32⟩
  | .hbm, ⟨65, _⟩ => ⟨S6144, .f32⟩
  | .hbm, ⟨66, _⟩ => ⟨S61440x1, .i32⟩
  | .hbm, ⟨67, _⟩ => ⟨S6144, .f32⟩
  | .hbm, ⟨68, _⟩ => ⟨S_, .f32⟩
  | .hbm, ⟨69, _⟩ => ⟨S6144, .f32⟩
  | .hbm, ⟨70, _⟩ => ⟨S6144, .f32⟩
  | .hbm, ⟨71, _⟩ => ⟨S_, .f32⟩
  | .hbm, ⟨72, _⟩ => ⟨S6144, .f32⟩
  | .hbm, ⟨73, _⟩ => ⟨S6144, .f32⟩
  | .hbm, ⟨74, _⟩ => ⟨S6144x1, .f32⟩
  | .hbm, ⟨75, _⟩ => ⟨S512x256, .f32⟩
  | .hbm, ⟨76, _⟩ => ⟨S512x256, .bf16⟩
  | .hbm, ⟨77, _⟩ => ⟨S1x256, .f32⟩
  | .hbm, ⟨78, _⟩ => ⟨S6144x256, .bf16⟩
  | .hbm, ⟨79, _⟩ => ⟨S1024x256, .bf16⟩
  | .hbm, ⟨80, _⟩ => ⟨S_, .i32⟩
  | .hbm, ⟨81, _⟩ => ⟨S5120, .i32⟩
  | .hbm, ⟨82, _⟩ => ⟨S5120, .i1⟩
  | .hbm, ⟨83, _⟩ => ⟨S_, .i32⟩
  | .hbm, ⟨84, _⟩ => ⟨S5120, .i32⟩
  | .hbm, ⟨85, _⟩ => ⟨S5120, .i32⟩
  | .hbm, ⟨86, _⟩ => ⟨S5120, .i32⟩
  | .hbm, ⟨87, _⟩ => ⟨S5120x1, .i32⟩
  | .hbm, ⟨88, _⟩ => ⟨S5120x256, .bf16⟩
  | .hbm, ⟨89, _⟩ => ⟨S5120x256, .f32⟩
  | .hbm, ⟨90, _⟩ => ⟨S_, .f32⟩
  | .hbm, ⟨91, _⟩ => ⟨S1024x256, .f32⟩
  | .hbm, ⟨92, _⟩ => ⟨S5120x1, .i32⟩
  | .hbm, ⟨93, _⟩ => ⟨S1024x256, .f32⟩
  | .hbm, ⟨94, _⟩ => ⟨S_, .f32⟩
  | .hbm, ⟨95, _⟩ => ⟨S5120, .f32⟩
  | .hbm, ⟨96, _⟩ => ⟨S_, .f32⟩
  | .hbm, ⟨97, _⟩ => ⟨S1024, .f32⟩
  | .hbm, ⟨98, _⟩ => ⟨S5120x1, .i32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S_, .f32⟩
  | .hbm, ⟨104, _⟩ => ⟨S1024, .f32⟩
  | .hbm, ⟨105, _⟩ => ⟨S1024, .f32⟩
  | .hbm, ⟨106, _⟩ => ⟨S1024x1, .f32⟩
  | .hbm, ⟨107, _⟩ => ⟨S512x64, .f32⟩
  | .hbm, ⟨108, _⟩ => ⟨S512x64, .bf16⟩
  | .hbm, ⟨109, _⟩ => ⟨S1x64, .f32⟩
  | .hbm, ⟨110, _⟩ => ⟨S1024x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S256x256, .bf16⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S512x256, .bf16⟩
  | .local _ .vmem, ⟨17, _⟩ => ⟨S1x256, .f32⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .f32⟩
  | .local _ .vmem, ⟨22, _⟩ => ⟨S1024x1, .f32⟩
  | .local _ .vmem, ⟨23, _⟩ => ⟨S512x64, .bf16⟩
  | .local _ .vmem, ⟨24, _⟩ => ⟨S1x64, .f32⟩
  | .local _ .vmem, ⟨25, _⟩ => ⟨S1024x64, .f32⟩
  | _, _ => ⟨S1081344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_15 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_v66 : Ref sig .tc := ⟨.hbm, 102, rfl⟩
abbrev main_cst_18 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  slices_S1081344x128_S67584x128_0_0 : S1081344x128.Slices ![0, 0] S67584x128
  bcast_S_S1013760 : S_.BroadcastsInDim S1013760 (![] : Fin 0 → Fin S1013760.rank)
  bcast_S1013760_S1013760x1_0 : S1013760.BroadcastsInDim S1013760x1 (![0] : Fin 1 → Fin S1013760x1.rank)
  bcast_S_S67584x128 : S_.BroadcastsInDim S67584x128 (![] : Fin 0 → Fin S67584x128.rank)
  bcast_S_S67584 : S_.BroadcastsInDim S67584 (![] : Fin 0 → Fin S67584.rank)
  shapeCasts_S67584_S67584x1 : S67584.ShapeCasts S67584x1
  concatenates_S128x256_S128x256_S256x256_d0 : Shape.Concatenates [S128x256, S128x256] S256x256 0
  bitsLt_bf16_f32 : FTy.bits .bf16 < FTy.bits .f32
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  concatenates_S2048x128_S2048x128_S2048x256_d1 : Shape.Concatenates [S2048x128, S2048x128] S2048x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  slices_S67584x256_S6144x256_0_0 : S67584x256.Slices ![0, 0] S6144x256
  bcast_S_S61440 : S_.BroadcastsInDim S61440 (![] : Fin 0 → Fin S61440.rank)
  bcast_S61440_S61440x1_0 : S61440.BroadcastsInDim S61440x1 (![0] : Fin 1 → Fin S61440x1.rank)
  bcast_S_S6144x256 : S_.BroadcastsInDim S6144x256 (![] : Fin 0 → Fin S6144x256.rank)
  bcast_S_S6144 : S_.BroadcastsInDim S6144 (![] : Fin 0 → Fin S6144.rank)
  shapeCasts_S6144_S6144x1 : S6144.ShapeCasts S6144x1
  concatenates_S256x256_S256x256_S512x256_d0 : Shape.Concatenates [S256x256, S256x256] S512x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  slices_S6144x256_S1024x256_0_0 : S6144x256.Slices ![0, 0] S1024x256
  bcast_S_S5120 : S_.BroadcastsInDim S5120 (![] : Fin 0 → Fin S5120.rank)
  bcast_S5120_S5120x1_0 : S5120.BroadcastsInDim S5120x1 (![0] : Fin 1 → Fin S5120x1.rank)
  bcast_S_S1024x256 : S_.BroadcastsInDim S1024x256 (![] : Fin 0 → Fin S1024x256.rank)
  bcast_S_S1024 : S_.BroadcastsInDim S1024 (![] : Fin 0 → Fin S1024.rank)
  shapeCasts_S1024_S1024x1 : S1024.ShapeCasts S1024x1
  concatenates_S256x64_S256x64_S512x64_d0 : Shape.Concatenates [S256x64, S256x64] S512x64 0
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  gather_S1081344x128_S1013760x1_S1013760x128_1_0_n_n_0_1_1128_wf : GatherDims.WF S1081344x128 S1013760x1 S1013760x128 [1] [0] [] [0] [] 1 ![1, 128]
  scatter_S67584x128_S1013760x1_S1013760x128_1_0_0_1_wf : ScatterDims.WF S67584x128 S1013760x1 S1013760x128 [1] [0] [0] 1
  scatter_S67584_S1013760x1_S1013760_n_0_0_1_wf : ScatterDims.WF S67584 S1013760x1 S1013760 [] [0] [0] 1
  dot_S2048x256_S256x256_S2048x256_1_0_0_1_n_n_wf : DotDims.WF S2048x256 S256x256 S2048x256 [1] [0] [0] [1] [] []
  gather_S67584x256_S61440x1_S61440x256_1_0_n_n_0_1_1256_wf : GatherDims.WF S67584x256 S61440x1 S61440x256 [1] [0] [] [0] [] 1 ![1, 256]
  scatter_S6144x256_S61440x1_S61440x256_1_0_0_1_wf : ScatterDims.WF S6144x256 S61440x1 S61440x256 [1] [0] [0] 1
  scatter_S6144_S61440x1_S61440_n_0_0_1_wf : ScatterDims.WF S6144 S61440x1 S61440 [] [0] [0] 1
  dot_S1024x512_S512x256_S1024x256_1_0_0_1_n_n_wf : DotDims.WF S1024x512 S512x256 S1024x256 [1] [0] [0] [1] [] []
  gather_S6144x256_S5120x1_S5120x256_1_0_n_n_0_1_1256_wf : GatherDims.WF S6144x256 S5120x1 S5120x256 [1] [0] [] [0] [] 1 ![1, 256]
  scatter_S1024x256_S5120x1_S5120x256_1_0_0_1_wf : ScatterDims.WF S1024x256 S5120x1 S5120x256 [1] [0] [0] 1
  scatter_S1024_S5120x1_S5120_n_0_0_1_wf : ScatterDims.WF S1024 S5120x1 S5120 [] [0] [0] 1
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S67584x128.size a
  hwx0_0 : ∀ i : grid0.Coords, EltTy.bits .f32 = 32 ∨ (Rect.block (s := S67584x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S67584x128.size a
  hwx0_1 : ∀ i : grid0.Coords, EltTy.bits .f32 = 32 ∨ (Rect.block (s := S67584x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S67584x1.size a
  hwx0_2 : ∀ i : grid0.Coords, EltTy.bits .f32 = 32 ∨ (Rect.block (s := S67584x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S67584x256.size a
  hwx0_5 : ∀ i : grid0.Coords, EltTy.bits .bf16 = 32 ∨ (Rect.block (s := S67584x256) S2048x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S6144x256.size a
  hwx1_0 : ∀ i : grid1.Coords, EltTy.bits .bf16 = 32 ∨ (Rect.block (s := S6144x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S6144x256.size a
  hwx1_1 : ∀ i : grid1.Coords, EltTy.bits .f32 = 32 ∨ (Rect.block (s := S6144x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S6144x1.size a
  hwx1_2 : ∀ i : grid1.Coords, EltTy.bits .f32 = 32 ∨ (Rect.block (s := S6144x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S6144x256.size a
  hwx1_5 : ∀ i : grid1.Coords, EltTy.bits .bf16 = 32 ∨ (Rect.block (s := S6144x256) S1024x256.size (cc1_transform_5 i) (hinb1_5 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .bf16 = 32 ∨ (Rect.block (s := S1024x256) S1024x256.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S512x64.size a
  hwx2_3 : ∀ i : grid2.Coords, EltTy.bits .bf16 = 32 ∨ (Rect.block (s := S512x64) S512x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1024x64.size a ≤ S1024x64.size a
  hwx2_5 : ∀ i : grid2.Coords, EltTy.bits .f32 = 32 ∨ (Rect.block (s := S1024x64) S1024x64.size (cc2_transform_5 i) (hinb2_5 i)).WholeWords (EltTy.packing .f32)

variable [Facts₀]

def gather_S1081344x128_S1013760x1_S1013760x128_1_0_n_n_0_1_1128 : GatherDims S1081344x128 S1013760x1 S1013760x128 where
  offsetDims := [1]
  collapsedSliceDims := [0]
  operandBatchingDims := []
  startIndicesBatchingDims := []
  startIndexMap := [0]
  indexVectorDim := 1
  sliceSizes := ![1, 128]
  wf := gather_S1081344x128_S1013760x1_S1013760x128_1_0_n_n_0_1_1128_wf
def scatter_S67584x128_S1013760x1_S1013760x128_1_0_0_1 : ScatterDims S67584x128 S1013760x1 S1013760x128 where
  updateWindowDims := [1]
  insertedWindowDims := [0]
  scatterDimsToOperandDims := [0]
  indexVectorDim := 1
  wf := scatter_S67584x128_S1013760x1_S1013760x128_1_0_0_1_wf
def scatter_S67584_S1013760x1_S1013760_n_0_0_1 : ScatterDims S67584 S1013760x1 S1013760 where
  updateWindowDims := []
  insertedWindowDims := [0]
  scatterDimsToOperandDims := [0]
  indexVectorDim := 1
  wf := scatter_S67584_S1013760x1_S1013760_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S67584x256_S61440x1_S61440x256_1_0_n_n_0_1_1256 : GatherDims S67584x256 S61440x1 S61440x256 where
  offsetDims := [1]
  collapsedSliceDims := [0]
  operandBatchingDims := []
  startIndicesBatchingDims := []
  startIndexMap := [0]
  indexVectorDim := 1
  sliceSizes := ![1, 256]
  wf := gather_S67584x256_S61440x1_S61440x256_1_0_n_n_0_1_1256_wf
def scatter_S6144x256_S61440x1_S61440x256_1_0_0_1 : ScatterDims S6144x256 S61440x1 S61440x256 where
  updateWindowDims := [1]
  insertedWindowDims := [0]
  scatterDimsToOperandDims := [0]
  indexVectorDim := 1
  wf := scatter_S6144x256_S61440x1_S61440x256_1_0_0_1_wf
def scatter_S6144_S61440x1_S61440_n_0_0_1 : ScatterDims S6144 S61440x1 S61440 where
  updateWindowDims := []
  insertedWindowDims := [0]
  scatterDimsToOperandDims := [0]
  indexVectorDim := 1
  wf := scatter_S6144_S61440x1_S61440_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S6144x256_S5120x1_S5120x256_1_0_n_n_0_1_1256 : GatherDims S6144x256 S5120x1 S5120x256 where
  offsetDims := [1]
  collapsedSliceDims := [0]
  operandBatchingDims := []
  startIndicesBatchingDims := []
  startIndexMap := [0]
  indexVectorDim := 1
  sliceSizes := ![1, 256]
  wf := gather_S6144x256_S5120x1_S5120x256_1_0_n_n_0_1_1256_wf
def scatter_S1024x256_S5120x1_S5120x256_1_0_0_1 : ScatterDims S1024x256 S5120x1 S5120x256 where
  updateWindowDims := [1]
  insertedWindowDims := [0]
  scatterDimsToOperandDims := [0]
  indexVectorDim := 1
  wf := scatter_S1024x256_S5120x1_S5120x256_1_0_0_1_wf
def scatter_S1024_S5120x1_S5120_n_0_0_1 : ScatterDims S1024 S5120x1 S5120 where
  updateWindowDims := []
  insertedWindowDims := [0]
  scatterDimsToOperandDims := [0]
  indexVectorDim := 1
  wf := scatter_S1024_S5120x1_S5120_n_0_0_1_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1024x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S512x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1024x64.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1081344x128 : Shape := ⟨2, ![1081344, 128]⟩
abbrev S1013760 : Shape := ⟨1, ![1013760]⟩
abbrev S61440 : Shape := ⟨1, ![61440]⟩
abbrev S5120 : Shape := ⟨1, ![5120]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S67584x128 : Shape := ⟨2, ![67584, 128]⟩
abbrev S_ : Shape := ⟨0, ![]⟩
abbrev S1013760x1 : Shape := ⟨2, ![1013760, 1]⟩
abbrev S1013760x128 : Shape := ⟨2, ![1013760, 128]⟩
abbrev S67584 : Shape := ⟨1, ![67584]⟩
abbrev S67584x1 : Shape := ⟨2, ![67584, 1]⟩
abbrev S67584x256 : Shape := ⟨2, ![67584, 256]⟩
abbrev S1x256 : Shape := ⟨2, ![1, 256]⟩
abbrev S6144x256 : Shape := ⟨2, ![6144, 256]⟩
abbrev S61440x1 : Shape := ⟨2, ![61440, 1]⟩
abbrev S61440x256 : Shape := ⟨2, ![61440, 256]⟩
abbrev S6144 : Shape := ⟨1, ![6144]⟩
abbrev S6144x1 : Shape := ⟨2, ![6144, 1]⟩
abbrev S1024x256 : Shape := ⟨2, ![1024, 256]⟩
abbrev S5120x1 : Shape := ⟨2, ![5120, 1]⟩
abbrev S5120x256 : Shape := ⟨2, ![5120, 256]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S1081344x128, .f32⟩
  | .hbm, ⟨1, _⟩ => ⟨S1013760, .i32⟩
  | .hbm, ⟨2, _⟩ => ⟨S1013760, .i32⟩
  | .hbm, ⟨3, _⟩ => ⟨S61440, .i32⟩
  | .hbm, ⟨4, _⟩ => ⟨S61440, .i32⟩
  | .hbm, ⟨5, _⟩ => ⟨S5120, .i32⟩
  | .hbm, ⟨6, _⟩ => ⟨S5120, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x64, .f32⟩
  | .hbm, ⟨14, _⟩ => ⟨S256x64, .f32⟩
  | .hbm, ⟨15, _⟩ => ⟨S64, .f32⟩
  | .hbm, ⟨16, _⟩ => ⟨S67584x128, .f32⟩
  | .hbm, ⟨17, _⟩ => ⟨S_, .i32⟩
  | .hbm, ⟨18, _⟩ => ⟨S1013760, .i32⟩
  | .hbm, ⟨19, _⟩ => ⟨S1013760, .i1⟩
  | .hbm, ⟨20, _⟩ => ⟨S_, .i32⟩
  | .hbm, ⟨21, _⟩ => ⟨S1013760, .i32⟩
  | .hbm, ⟨22, _⟩ => ⟨S1013760, .i32⟩
  | .hbm, ⟨23, _⟩ => ⟨S1013760, .i32⟩
  | .hbm, ⟨24, _⟩ => ⟨S1013760x1, .i32⟩
  | .hbm, ⟨25, _⟩ => ⟨S1013760x128, .f32⟩
  | .hbm, ⟨26, _⟩ => ⟨S_, .f32⟩
  | .hbm, ⟨27, _⟩ => ⟨S67584x128, .f32⟩
  | .hbm, ⟨28, _⟩ => ⟨S1013760x1, .i32⟩
  | .hbm, ⟨29, _⟩ => ⟨S67584x128, .f32⟩
  | .hbm, ⟨30, _⟩ => ⟨S_, .f32⟩
  | .hbm, ⟨31, _⟩ => ⟨S1013760, .f32⟩
  | .hbm, ⟨32, _⟩ => ⟨S_, .f32⟩
  | .hbm, ⟨33, _⟩ => ⟨S67584, .f32⟩
  | .hbm, ⟨34, _⟩ => ⟨S1013760x1, .i32⟩
  | .hbm, ⟨35, _⟩ => ⟨S67584, .f32⟩
  | .hbm, ⟨36, _⟩ => ⟨S_, .f32⟩
  | .hbm, ⟨37, _⟩ => ⟨S67584, .f32⟩
  | .hbm, ⟨38, _⟩ => ⟨S67584, .f32⟩
  | .hbm, ⟨39, _⟩ => ⟨S67584x1, .f32⟩
  | .hbm, ⟨40, _⟩ => ⟨S67584x128, .f32⟩
  | .hbm, ⟨41, _⟩ => ⟨S67584x128, .f32⟩
  | .hbm, ⟨42, _⟩ => ⟨S67584x256, .f32⟩
  | .hbm, ⟨43, _⟩ => ⟨S67584x256, .f32⟩
  | .hbm, ⟨44, _⟩ => ⟨S67584x256, .f32⟩
  | .hbm, ⟨45, _⟩ => ⟨S1x256, .f32⟩
  | .hbm, ⟨46, _⟩ => ⟨S67584x256, .f32⟩
  | .hbm, ⟨47, _⟩ => ⟨S67584x256, .f32⟩
  | .hbm, ⟨48, _⟩ => ⟨S_, .f32⟩
  | .hbm, ⟨49, _⟩ => ⟨S67584x256, .f32⟩
  | .hbm, ⟨50, _⟩ => ⟨S67584x256, .f32⟩
  | .hbm, ⟨51, _⟩ => ⟨S6144x256, .f32⟩
  | .hbm, ⟨52, _⟩ => ⟨S_, .i32⟩
  | .hbm, ⟨53, _⟩ => ⟨S61440, .i32⟩
  | .hbm, ⟨54, _⟩ => ⟨S61440, .i1⟩
  | .hbm, ⟨55, _⟩ => ⟨S_, .i32⟩
  | .hbm, ⟨56, _⟩ => ⟨S61440, .i32⟩
  | .hbm, ⟨57, _⟩ => ⟨S61440, .i32⟩
  | .hbm, ⟨58, _⟩ => ⟨S61440, .i32⟩
  | .hbm, ⟨59, _⟩ => ⟨S61440x1, .i32⟩
  | .hbm, ⟨60, _⟩ => ⟨S61440x256, .f32⟩
  | .hbm, ⟨61, _⟩ => ⟨S_, .f32⟩
  | .hbm, ⟨62, _⟩ => ⟨S6144x256, .f32⟩
  | .hbm, ⟨63, _⟩ => ⟨S61440x1, .i32⟩
  | .hbm, ⟨64, _⟩ => ⟨S6144x256, .f32⟩
  | .hbm, ⟨65, _⟩ => ⟨S_, .f32⟩
  | .hbm, ⟨66, _⟩ => ⟨S61440, .f32⟩
  | .hbm, ⟨67, _⟩ => ⟨S_, .f32⟩
  | .hbm, ⟨68, _⟩ => ⟨S6144, .f32⟩
  | .hbm, ⟨69, _⟩ => ⟨S61440x1, .i32⟩
  | .hbm, ⟨70, _⟩ => ⟨S6144, .f32⟩
  | .hbm, ⟨71, _⟩ => ⟨S_, .f32⟩
  | .hbm, ⟨72, _⟩ => ⟨S6144, .f32⟩
  | .hbm, ⟨73, _⟩ => ⟨S6144, .f32⟩
  | .hbm, ⟨74, _⟩ => ⟨S6144x1, .f32⟩
  | .hbm, ⟨75, _⟩ => ⟨S6144x256, .f32⟩
  | .hbm, ⟨76, _⟩ => ⟨S6144x256, .f32⟩
  | .hbm, ⟨77, _⟩ => ⟨S6144x256, .f32⟩
  | .hbm, ⟨78, _⟩ => ⟨S6144x256, .f32⟩
  | .hbm, ⟨79, _⟩ => ⟨S6144x256, .f32⟩
  | .hbm, ⟨80, _⟩ => ⟨S1x256, .f32⟩
  | .hbm, ⟨81, _⟩ => ⟨S6144x256, .f32⟩
  | .hbm, ⟨82, _⟩ => ⟨S6144x256, .f32⟩
  | .hbm, ⟨83, _⟩ => ⟨S_, .f32⟩
  | .hbm, ⟨84, _⟩ => ⟨S6144x256, .f32⟩
  | .hbm, ⟨85, _⟩ => ⟨S6144x256, .f32⟩
  | .hbm, ⟨86, _⟩ => ⟨S1024x256, .f32⟩
  | .hbm, ⟨87, _⟩ => ⟨S_, .i32⟩
  | .hbm, ⟨88, _⟩ => ⟨S5120, .i32⟩
  | .hbm, ⟨89, _⟩ => ⟨S5120, .i1⟩
  | .hbm, ⟨90, _⟩ => ⟨S_, .i32⟩
  | .hbm, ⟨91, _⟩ => ⟨S5120, .i32⟩
  | .hbm, ⟨92, _⟩ => ⟨S5120, .i32⟩
  | .hbm, ⟨93, _⟩ => ⟨S5120, .i32⟩
  | .hbm, ⟨94, _⟩ => ⟨S5120x1, .i32⟩
  | .hbm, ⟨95, _⟩ => ⟨S5120x256, .f32⟩
  | .hbm, ⟨96, _⟩ => ⟨S_, .f32⟩
  | .hbm, ⟨97, _⟩ => ⟨S1024x256, .f32⟩
  | .hbm, ⟨98, _⟩ => ⟨S5120x1, .i32⟩
  | .hbm, ⟨99, _⟩ => ⟨S1024x256, .f32⟩
  | .hbm, ⟨100, _⟩ => ⟨S_, .f32⟩
  | .hbm, ⟨101, _⟩ => ⟨S5120, .f32⟩
  | .hbm, ⟨102, _⟩ => ⟨S_, .f32⟩
  | .hbm, ⟨103, _⟩ => ⟨S1024, .f32⟩
  | .hbm, ⟨104, _⟩ => ⟨S5120x1, .i32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S1024, .f32⟩
  | .hbm, ⟨109, _⟩ => ⟨S1024x1, .f32⟩
  | .hbm, ⟨110, _⟩ => ⟨S1024x256, .f32⟩
  | .hbm, ⟨111, _⟩ => ⟨S1024x256, .f32⟩
  | .hbm, ⟨112, _⟩ => ⟨S1024x64, .f32⟩
  | .hbm, ⟨113, _⟩ => ⟨S1024x64, .f32⟩
  | .hbm, ⟨114, _⟩ => ⟨S1024x64, .f32⟩
  | .hbm, ⟨115, _⟩ => ⟨S1x64, .f32⟩
  | .hbm, ⟨116, _⟩ => ⟨S1024x64, .f32⟩
  | .hbm, ⟨117, _⟩ => ⟨S1024x64, .f32⟩
  | _, _ => ⟨S1081344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  slices_S1081344x128_S67584x128_0_0 : S1081344x128.Slices ![0, 0] S67584x128
  bcast_S_S1013760 : S_.BroadcastsInDim S1013760 (![] : Fin 0 → Fin S1013760.rank)
  bcast_S1013760_S1013760x1_0 : S1013760.BroadcastsInDim S1013760x1 (![0] : Fin 1 → Fin S1013760x1.rank)
  bcast_S_S67584x128 : S_.BroadcastsInDim S67584x128 (![] : Fin 0 → Fin S67584x128.rank)
  bcast_S_S67584 : S_.BroadcastsInDim S67584 (![] : Fin 0 → Fin S67584.rank)
  bcast_S67584_S67584x1_0 : S67584.BroadcastsInDim S67584x1 (![0] : Fin 1 → Fin S67584x1.rank)
  bcast_S67584x1_S67584x128_0_1 : S67584x1.BroadcastsInDim S67584x128 (![0, 1] : Fin 2 → Fin S67584x128.rank)
  bcast_S256_S1x256_1 : S256.BroadcastsInDim S1x256 (![1] : Fin 1 → Fin S1x256.rank)
  bcast_S1x256_S67584x256_0_1 : S1x256.BroadcastsInDim S67584x256 (![0, 1] : Fin 2 → Fin S67584x256.rank)
  bcast_S_S67584x256 : S_.BroadcastsInDim S67584x256 (![] : Fin 0 → Fin S67584x256.rank)
  slices_S67584x256_S6144x256_0_0 : S67584x256.Slices ![0, 0] S6144x256
  bcast_S_S61440 : S_.BroadcastsInDim S61440 (![] : Fin 0 → Fin S61440.rank)
  bcast_S61440_S61440x1_0 : S61440.BroadcastsInDim S61440x1 (![0] : Fin 1 → Fin S61440x1.rank)
  bcast_S_S6144x256 : S_.BroadcastsInDim S6144x256 (![] : Fin 0 → Fin S6144x256.rank)
  bcast_S_S6144 : S_.BroadcastsInDim S6144 (![] : Fin 0 → Fin S6144.rank)
  bcast_S6144_S6144x1_0 : S6144.BroadcastsInDim S6144x1 (![0] : Fin 1 → Fin S6144x1.rank)
  bcast_S6144x1_S6144x256_0_1 : S6144x1.BroadcastsInDim S6144x256 (![0, 1] : Fin 2 → Fin S6144x256.rank)
  bcast_S1x256_S6144x256_0_1 : S1x256.BroadcastsInDim S6144x256 (![0, 1] : Fin 2 → Fin S6144x256.rank)
  slices_S6144x256_S1024x256_0_0 : S6144x256.Slices ![0, 0] S1024x256
  bcast_S_S5120 : S_.BroadcastsInDim S5120 (![] : Fin 0 → Fin S5120.rank)
  bcast_S5120_S5120x1_0 : S5120.BroadcastsInDim S5120x1 (![0] : Fin 1 → Fin S5120x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  gather_S1081344x128_S1013760x1_S1013760x128_1_0_n_n_0_1_1128_wf : GatherDims.WF S1081344x128 S1013760x1 S1013760x128 [1] [0] [] [0] [] 1 ![1, 128]
  scatter_S67584x128_S1013760x1_S1013760x128_1_0_0_1_wf : ScatterDims.WF S67584x128 S1013760x1 S1013760x128 [1] [0] [0] 1
  scatter_S67584_S1013760x1_S1013760_n_0_0_1_wf : ScatterDims.WF S67584 S1013760x1 S1013760 [] [0] [0] 1
  dot_S67584x128_S128x256_S67584x256_1_0_0_1_n_n_wf : DotDims.WF S67584x128 S128x256 S67584x256 [1] [0] [0] [1] [] []
  gather_S67584x256_S61440x1_S61440x256_1_0_n_n_0_1_1256_wf : GatherDims.WF S67584x256 S61440x1 S61440x256 [1] [0] [] [0] [] 1 ![1, 256]
  scatter_S6144x256_S61440x1_S61440x256_1_0_0_1_wf : ScatterDims.WF S6144x256 S61440x1 S61440x256 [1] [0] [0] 1
  scatter_S6144_S61440x1_S61440_n_0_0_1_wf : ScatterDims.WF S6144 S61440x1 S61440 [] [0] [0] 1
  dot_S6144x256_S256x256_S6144x256_1_0_0_1_n_n_wf : DotDims.WF S6144x256 S256x256 S6144x256 [1] [0] [0] [1] [] []
  gather_S6144x256_S5120x1_S5120x256_1_0_n_n_0_1_1256_wf : GatherDims.WF S6144x256 S5120x1 S5120x256 [1] [0] [] [0] [] 1 ![1, 256]
  scatter_S1024x256_S5120x1_S5120x256_1_0_0_1_wf : ScatterDims.WF S1024x256 S5120x1 S5120x256 [1] [0] [0] 1
  scatter_S1024_S5120x1_S5120_n_0_0_1_wf : ScatterDims.WF S1024 S5120x1 S5120 [] [0] [0] 1
  dot_S1024x256_S256x64_S1024x64_1_0_0_1_n_n_wf : DotDims.WF S1024x256 S256x64 S1024x64 [1] [0] [0] [1] [] []

variable [Facts₀]

def gather_S1081344x128_S1013760x1_S1013760x128_1_0_n_n_0_1_1128 : GatherDims S1081344x128 S1013760x1 S1013760x128 where
  offsetDims := [1]
  collapsedSliceDims := [0]
  operandBatchingDims := []
  startIndicesBatchingDims := []
  startIndexMap := [0]
  indexVectorDim := 1
  sliceSizes := ![1, 128]
  wf := gather_S1081344x128_S1013760x1_S1013760x128_1_0_n_n_0_1_1128_wf
def scatter_S67584x128_S1013760x1_S1013760x128_1_0_0_1 : ScatterDims S67584x128 S1013760x1 S1013760x128 where
  updateWindowDims := [1]
  insertedWindowDims := [0]
  scatterDimsToOperandDims := [0]
  indexVectorDim := 1
  wf := scatter_S67584x128_S1013760x1_S1013760x128_1_0_0_1_wf
def scatter_S67584_S1013760x1_S1013760_n_0_0_1 : ScatterDims S67584 S1013760x1 S1013760 where
  updateWindowDims := []
  insertedWindowDims := [0]
  scatterDimsToOperandDims := [0]
  indexVectorDim := 1
  wf := scatter_S67584_S1013760x1_S1013760_n_0_0_1_wf
def dot_S67584x128_S128x256_S67584x256_1_0_0_1_n_n : DotDims S67584x128 S128x256 S67584x256 where
  lhsContracting := [1]
  rhsContracting := [0]
  lhsNonContracting := [0]
  rhsNonContracting := [1]
  lhsBatch := []
  rhsBatch := []
  wf := dot_S67584x128_S128x256_S67584x256_1_0_0_1_n_n_wf
def gather_S67584x256_S61440x1_S61440x256_1_0_n_n_0_1_1256 : GatherDims S67584x256 S61440x1 S61440x256 where
  offsetDims := [1]
  collapsedSliceDims := [0]
  operandBatchingDims := []
  startIndicesBatchingDims := []
  startIndexMap := [0]
  indexVectorDim := 1
  sliceSizes := ![1, 256]
  wf := gather_S67584x256_S61440x1_S61440x256_1_0_n_n_0_1_1256_wf
def scatter_S6144x256_S61440x1_S61440x256_1_0_0_1 : ScatterDims S6144x256 S61440x1 S61440x256 where
  updateWindowDims := [1]
  insertedWindowDims := [0]
  scatterDimsToOperandDims := [0]
  indexVectorDim := 1
  wf := scatter_S6144x256_S61440x1_S61440x256_1_0_0_1_wf
def scatter_S6144_S61440x1_S61440_n_0_0_1 : ScatterDims S6144 S61440x1 S61440 where
  updateWindowDims := []
  insertedWindowDims := [0]
  scatterDimsToOperandDims := [0]
  indexVectorDim := 1
  wf := scatter_S6144_S61440x1_S61440_n_0_0_1_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def gather_S6144x256_S5120x1_S5120x256_1_0_n_n_0_1_1256 : GatherDims S6144x256 S5120x1 S5120x256 where
  offsetDims := [1]
  collapsedSliceDims := [0]
  operandBatchingDims := []
  startIndicesBatchingDims := []
  startIndexMap := [0]
  indexVectorDim := 1
  sliceSizes := ![1, 256]
  wf := gather_S6144x256_S5120x1_S5120x256_1_0_n_n_0_1_1256_wf
def scatter_S1024x256_S5120x1_S5120x256_1_0_0_1 : ScatterDims S1024x256 S5120x1 S5120x256 where
  updateWindowDims := [1]
  insertedWindowDims := [0]
  scatterDimsToOperandDims := [0]
  indexVectorDim := 1
  wf := scatter_S1024x256_S5120x1_S5120x256_1_0_0_1_wf
def scatter_S1024_S5120x1_S5120_n_0_0_1 : ScatterDims S1024 S5120x1 S5120 where
  updateWindowDims := []
  insertedWindowDims := [0]
  scatterDimsToOperandDims := [0]
  indexVectorDim := 1
  wf := scatter_S1024_S5120x1_S5120_n_0_0_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

class Facts : Prop extends Facts₀ where

variable [Facts]
-- ==== Proof.KernelRun.lean ====
/-
  The idealized kernel's run with its result named.

  @main is three kernel launches among stretches of host operations.  Running it from any memory, every weakly fair
  execution terminates without a fault, and at the end every buffer that outlives the launches holds what the fold of
  the segments leaves in it: host operations applied in order, and after each launch that launch's arrays at what its
  write-backs leave.  In particular the result buffer holds the last launch's output array, and the sixteen argument
  buffers hold what they held at the start, since no segment writes one.  The run itself is the library's theorem for a
  program given as a list of segments, applied to this program's segments; what is stated here that the frame claim
  does not state is the contents of the result buffer.
-/
import proofs.«154911_j55027120997010_2_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents of it, and the argument buffers end as launched. -/
theorem run_result : θ_run defs (onTc (τ := τ) (main (F := F))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v73 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Sage

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«154911_j55027120997010_2_alg».proof.Proof.LibDense
import proofs.«154911_j55027120997010_2_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.LibJoin.lean ====
/-
  Two matrices with the same number of rows joined along the lane axis, read at an index written by its coordinates:
  a lane inside the first matrix's width reads the first matrix at the same place, a later lane reads the second
  matrix at that lane less the first matrix's width. Both are the library's general reading of a two-piece
  concatenation with the coordinates worked out for rank two.
-/
import Idealize.ShloMosaic.Lib.Pipeline.Value
import Idealize.ShloMosaic.Lib.ValueIdx

namespace Cert.LibJoin

open Idealize.ShloMosaic Idealize.ShloMosaic.ValueIdx

variable {α : Type}

/-- Lane `j` of the join, when `j` lies in the first matrix: the first matrix at `(r, j)`. -/
theorem join_left {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₁ : Fin b₁) (hj : j₁.val = j.val) :
    concatenate (⟨2, ![a, c]⟩ : Shape) 1 [⟨(⟨2, ![a, b₁]⟩ : Shape), x₁⟩, ⟨(⟨2, ![a, b₂]⟩ : Shape), x₂⟩] h (ix2 r j)
      = x₁ (ix2 r j₁) :=
  concatenate_pair_apply_left 1 x₁ x₂ h (ix2 r j) rfl (ix2 r j₁) fun d => by
    match d with
    | ⟨0, _⟩ => rfl
    | ⟨1, _⟩ => exact hj

/-- Lane `j` of the join, when `j` lies past the first matrix: the second matrix at `(r, j - b₁)`. -/
theorem join_right {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₂ : Fin b₂) (hj : j₂.val + b₁ = j.val) :
    concatenate (⟨2, ![a, c]⟩ : Shape) 1 [⟨(⟨2, ![a, b₁]⟩ : Shape), x₁⟩, ⟨(⟨2, ![a, b₂]⟩ : Shape), x₂⟩] h (ix2 r j)
      = x₂ (ix2 r j₂) :=
  concatenate_pair_apply_right 1 x₁ x₂ h (ix2 r j) rfl rfl (ix2 r j₂)
    (fun d hd => by
      match d with
      | ⟨0, _⟩ => rfl
      | ⟨1, _⟩ => exact absurd rfl hd)
    hj

end Cert.LibJoin
-- ==== Proof.SageRow.lean ====
/-
  One layer of a mean-aggregating graph network, read as a function of rows at the ideal values.

  A layer takes, for each of A destination nodes, the node's own row h(r, ·) of K features, the sum msg(r, ·) of its
  in-neighbours' rows and the number deg(r) of those neighbours, and returns

      out(r, n) = sum_k h(r, k) * ws(k, n)  +  sum_k (msg(r, k) / max(deg(r), 1)) * wn(k, n)  +  b(n).

  The reference computes exactly this: a quotient, two matrix products, a sum and a bias.  The kernel arranges it
  differently: it multiplies msg(r, k) by the reciprocal 1 / max(deg(r), 1), computed once per row, lays the two
  K-wide rows side by side as one row of 2K lanes, stacks ws on top of wn as one matrix of 2K rows, and takes a
  single product over the 2K lanes.  Two facts join the arrangements.  A sum over 2K lanes is the sum over the first K
  plus the sum over the last K, which is only the associativity of addition.  And x * (1 / y) = x / y for every
  extended real x as soon as y is not 0, because the quotient is x times the inverse of y and 1 times that inverse is
  the inverse; here y = max(d, 1) is at least 1, whatever d is.  Neither fact needs a finite input.  Every entry
  (r, n) depends on row r of h, msg and deg only, so the layer of a block of rows is the block of the layer of all
  rows.  Everything is generic in the extents.
-/
import proofs.«154911_j55027120997010_2_alg».proof.Proof.LibDense
import proofs.«154911_j55027120997010_2_alg».proof.Proof.LibLayers
import proofs.«154911_j55027120997010_2_alg».proof.Proof.LibJoin
import proofs.«154911_j55027120997010_2_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.Sage

open Idealize.ShloMosaic Idealize.ShloMosaic.ValueIdx Cert.LibDense Cert.LibLayers

/-! ## The two scalar facts -/

/-- The f32 word 0x3F800000 is the number one. -/
theorem one_eq : Ideal.ofBits .f32 0x3F800000#32 = 1 := by
  simp [Ideal.ofBits, Ideal.ieee, -EReal.coe_mul]; norm_num

/-- The larger of anything and one is not zero. -/
theorem max_one_ne_zero (d : EReal) : max d (Ideal.ofBits .f32 0x3F800000#32) ≠ 0 := by
  rw [one_eq]
  exact (lt_of_lt_of_le zero_lt_one (le_max_right d 1)).ne'

/-- Multiplying by the reciprocal of a nonzero extended real is dividing by it, at the infinities too. -/
theorem mul_recip (x : EReal) {y : EReal} (hy : y ≠ 0) :
    x * Ideal.div (Ideal.ofBits .f32 0x3F800000#32) y = Ideal.div x y := by
  rw [one_eq, Ideal.div, Ideal.div, if_neg hy, if_neg hy, one_mul]

/-! ## The layer, in the reference's arrangement and in the kernel's -/

/-- The layer before its activation: own row times ws, plus mean of the neighbours' rows times wn, plus the bias. -/
def sage (A K N : Nat) (h msg : (⟨2, ![A, K]⟩ : Shape).Idx → EReal) (deg : (⟨1, ![A]⟩ : Shape).Idx → EReal)
    (ws wn : (⟨2, ![K, N]⟩ : Shape).Idx → EReal) (b : (⟨1, ![N]⟩ : Shape).Idx → EReal) :
    (⟨2, ![A, N]⟩ : Shape).Idx → EReal :=
  fun j => ((∑ k : Fin K, h (ix2 (j 0 : Fin A) k) * ws (ix2 k (j 1 : Fin N)))
      + ∑ k : Fin K, Ideal.div (msg (ix2 (j 0 : Fin A) k))
          (max (deg (ix1 (j 0 : Fin A))) (Ideal.ofBits .f32 0x3F800000#32)) * wn (ix2 k (j 1 : Fin N)))
    + b (ix1 (j 1 : Fin N))

/-- The kernel's arrangement: the reciprocal arrives as a column inv, the two weight matrices as one matrix w of
    C = K + K rows (ws on top), the bias as one row b1. -/
def sageK (A K C N : Nat) (hC : K + K = C) (h msg : (⟨2, ![A, K]⟩ : Shape).Idx → EReal)
    (inv : (⟨2, ![A, 1]⟩ : Shape).Idx → EReal) (w : (⟨2, ![C, N]⟩ : Shape).Idx → EReal)
    (b1 : (⟨2, ![1, N]⟩ : Shape).Idx → EReal) : (⟨2, ![A, N]⟩ : Shape).Idx → EReal :=
  fun j => ((∑ k : Fin K, h (ix2 (j 0 : Fin A) k)
          * w (ix2 (⟨k.val, by have := k.isLt; omega⟩ : Fin C) (j 1 : Fin N)))
      + ∑ k : Fin K, (msg (ix2 (j 0 : Fin A) k) * inv (ix2 (j 0 : Fin A) (0 : Fin 1)))
          * w (ix2 (⟨k.val + K, by have := k.isLt; omega⟩ : Fin C) (j 1 : Fin N)))
    + b1 (ix2 (0 : Fin 1) (j 1 : Fin N))

/-- Entry (p, q) of the kernel's arrangement depends on row p of the row operands, on column q of the weights and on
    entry q of the bias row only. -/
theorem sageK_row {A A' K C N : Nat} (hC : K + K = C)
    (h msg : (⟨2, ![A, K]⟩ : Shape).Idx → EReal) (inv : (⟨2, ![A, 1]⟩ : Shape).Idx → EReal)
    (w : (⟨2, ![C, N]⟩ : Shape).Idx → EReal) (b1 : (⟨2, ![1, N]⟩ : Shape).Idx → EReal)
    (h' msg' : (⟨2, ![A', K]⟩ : Shape).Idx → EReal) (inv' : (⟨2, ![A', 1]⟩ : Shape).Idx → EReal)
    (w' : (⟨2, ![C, N]⟩ : Shape).Idx → EReal) (b1' : (⟨2, ![1, N]⟩ : Shape).Idx → EReal)
    (p : Fin A) (r : Fin A') (q : Fin N)
    (e0 : ∀ k : Fin K, h (ix2 p k) = h' (ix2 r k)) (e1 : ∀ k : Fin K, msg (ix2 p k) = msg' (ix2 r k))
    (e2 : inv (ix2 p (0 : Fin 1)) = inv' (ix2 r (0 : Fin 1)))
    (e3 : ∀ k : Fin C, w (ix2 k q) = w' (ix2 k q)) (e4 : b1 (ix2 (0 : Fin 1) q) = b1' (ix2 (0 : Fin 1) q)) :
    sageK A K C N hC h msg inv w b1 (ix2 p q) = sageK A' K C N hC h' msg' inv' w' b1' (ix2 r q) := by
  show ((∑ k : Fin K, h (ix2 p k) * w (ix2 (⟨k.val, _⟩ : Fin C) q))
      + ∑ k : Fin K, (msg (ix2 p k) * inv (ix2 p (0 : Fin 1))) * w (ix2 (⟨k.val + K, _⟩ : Fin C) q)) + b1 (ix2 (0 : Fin 1) q)
    = ((∑ k : Fin K, h' (ix2 r k) * w' (ix2 (⟨k.val, _⟩ : Fin C) q))
      + ∑ k : Fin K, (msg' (ix2 r k) * inv' (ix2 r (0 : Fin 1))) * w' (ix2 (⟨k.val + K, _⟩ : Fin C) q)) + b1' (ix2 (0 : Fin 1) q)
  refine congrArg₂ (· + ·) (congrArg₂ (· + ·) (Finset.sum_congr rfl fun k _ => ?_) (Finset.sum_congr rfl fun k _ => ?_)) e4
  · rw [e0 k, e3]
  · rw [e1 k, e2, e3]

/-! ## The reference's spelling is the layer -/

/-- Two host matrix products, the second of the quotient of the message sums by the degree (raised to one, laid out
    as a column and repeated along the row), added, plus the bias broadcast down the rows. -/
theorem sage_host {A K N : Nat} (h msg : FVec Ideal ⟨2, ![A, K]⟩ .f32) (deg : FVec Ideal ⟨1, ![A]⟩ .f32)
    (ws wn : FVec Ideal ⟨2, ![K, N]⟩ .f32) (b : FVec Ideal ⟨1, ![N]⟩ .f32)
    (d : DotDims ⟨2, ![A, K]⟩ ⟨2, ![K, N]⟩ ⟨2, ![A, N]⟩) (hd : d = DotDims.plain A K N)
    (hS : (⟨0, ![]⟩ : Shape).BroadcastsInDim ⟨1, ![A]⟩ (![] : Fin 0 → Fin 1))
    (hc1 : (⟨1, ![A]⟩ : Shape).BroadcastsInDim ⟨2, ![A, 1]⟩ ![0])
    (hc2 : (⟨2, ![A, 1]⟩ : Shape).BroadcastsInDim ⟨2, ![A, K]⟩ ![0, 1])
    (hb1 : (⟨1, ![N]⟩ : Shape).BroadcastsInDim ⟨2, ![1, N]⟩ ![1])
    (hb2 : (⟨2, ![1, N]⟩ : Shape).BroadcastsInDim ⟨2, ![A, N]⟩ ![0, 1]) :
    addf (addf (Host.dotGeneral d none h ws)
        (Host.dotGeneral d none (Host.divf msg (broadcastInDim ⟨2, ![A, K]⟩ ![0, 1] hc2 (broadcastInDim ⟨2, ![A, 1]⟩ ![0] hc1
          (maximumf deg (broadcastInDim ⟨1, ![A]⟩ ![] hS (constant (F := Ideal) ⟨0, ![]⟩ .f32 0x3F800000#32)))))) wn))
      (broadcastInDim ⟨2, ![A, N]⟩ ![0, 1] hb2 (broadcastInDim ⟨2, ![1, N]⟩ ![1] hb1 b))
    = sage A K N h msg deg ws wn b := by
  subst hd
  funext j
  obtain ⟨p, q, rfl⟩ : ∃ (p : Fin A) (q : Fin N), j = ix2 p q := ⟨j 0, j 1, eq_ix2 j⟩
  rw [addf_apply, addf_apply, bias_rows_host_ix b hb1 hb2 p q]
  refine congrArg₂ (· + ·) (congrArg₂ (· + ·) ?_ ?_) rfl
  · exact (Ideal.dotGeneral_apply (DotDims.plain A K N) none _ h ws (ix2 p q)).trans (plain_sum A K N h ws (ix2 p q))
  · refine (Ideal.dotGeneral_apply (DotDims.plain A K N) none _ _ wn (ix2 p q)).trans ?_
    refine (plain_sum A K N _ wn (ix2 p q)).trans ?_
    refine Finset.sum_congr rfl fun k _ => ?_
    refine congrArg (· * wn (ix2 k q)) ?_
    show Ideal.div (msg (ix2 p k)) (broadcastInDim ⟨2, ![A, K]⟩ ![0, 1] hc2 (broadcastInDim ⟨2, ![A, 1]⟩ ![0] hc1
        (maximumf deg (broadcastInDim ⟨1, ![A]⟩ ![] hS (constant (F := Ideal) ⟨0, ![]⟩ .f32 0x3F800000#32)))) (ix2 p k)) = _
    rw [col_host hc1 hc2 _ p k]
    rfl

/-! ## The kernel's operands, as the host prepares them, give the layer -/

/-- With the reciprocal column 1 / max(deg, 1), the two weight matrices stacked (and narrowed, which changes nothing
    at the ideal values) and the bias cast to one row, the kernel's arrangement is the layer. -/
theorem sageK_prep {A K C N : Nat} (hC : K + K = C) (h msg : (⟨2, ![A, K]⟩ : Shape).Idx → EReal)
    (deg : FVec Ideal ⟨1, ![A]⟩ .f32) (ws wn : FVec Ideal ⟨2, ![K, N]⟩ .f32) (b : FVec Ideal ⟨1, ![N]⟩ .f32)
    (hS : (⟨0, ![]⟩ : Shape).BroadcastsInDim ⟨1, ![A]⟩ (![] : Fin 0 → Fin 1))
    (hsc : (⟨1, ![A]⟩ : Shape).ShapeCasts ⟨2, ![A, 1]⟩)
    (hcat : Shape.Concatenates [(⟨2, ![K, N]⟩ : Shape), (⟨2, ![K, N]⟩ : Shape)] (⟨2, ![C, N]⟩ : Shape) 0)
    (hlt : FTy.bits .bf16 < FTy.bits .f32) (hsb : (⟨1, ![N]⟩ : Shape).ShapeCasts ⟨2, ![1, N]⟩) :
    sageK A K C N hC h msg
      (shapeCast ⟨2, ![A, 1]⟩ (Host.divf (broadcastInDim ⟨1, ![A]⟩ ![] hS (constant (F := Ideal) ⟨0, ![]⟩ .f32 0x3F800000#32))
        (maximumf deg (broadcastInDim ⟨1, ![A]⟩ ![] hS (constant (F := Ideal) ⟨0, ![]⟩ .f32 0x3F800000#32)))) hsc)
      (truncf .bf16 (concatenate (⟨2, ![C, N]⟩ : Shape) 0 [⟨(⟨2, ![K, N]⟩ : Shape), ws⟩, ⟨(⟨2, ![K, N]⟩ : Shape), wn⟩] hcat) hlt)
      (shapeCast ⟨2, ![1, N]⟩ b hsb)
    = sage A K N h msg deg ws wn b := by
  funext j
  obtain ⟨p, q, rfl⟩ : ∃ (p : Fin A) (q : Fin N), j = ix2 p q := ⟨j 0, j 1, eq_ix2 j⟩
  have etop : ∀ k : Fin K, concatenate (⟨2, ![C, N]⟩ : Shape) 0 [⟨(⟨2, ![K, N]⟩ : Shape), ws⟩, ⟨(⟨2, ![K, N]⟩ : Shape), wn⟩] hcat
      (ix2 (⟨k.val, by have := k.isLt; omega⟩ : Fin C) q) = ws (ix2 k q) := fun k =>
    concatenate_pair_apply_left 0 ws wn hcat (ix2 (⟨k.val, by have := k.isLt; omega⟩ : Fin C) q) rfl (ix2 k q) fun d => by
      match d with
      | ⟨0, _⟩ => rfl
      | ⟨1, _⟩ => rfl
  have ebot : ∀ k : Fin K, concatenate (⟨2, ![C, N]⟩ : Shape) 0 [⟨(⟨2, ![K, N]⟩ : Shape), ws⟩, ⟨(⟨2, ![K, N]⟩ : Shape), wn⟩] hcat
      (ix2 (⟨k.val + K, by have := k.isLt; omega⟩ : Fin C) q) = wn (ix2 k q) := fun k =>
    concatenate_pair_apply_right 0 ws wn hcat (ix2 (⟨k.val + K, by have := k.isLt; omega⟩ : Fin C) q) rfl rfl (ix2 k q)
      (fun d hd => by
        match d with
        | ⟨0, _⟩ => exact absurd rfl hd
        | ⟨1, _⟩ => rfl)
      rfl
  have einv : shapeCast ⟨2, ![A, 1]⟩ (Host.divf (broadcastInDim ⟨1, ![A]⟩ ![] hS (constant (F := Ideal) ⟨0, ![]⟩ .f32 0x3F800000#32))
        (maximumf deg (broadcastInDim ⟨1, ![A]⟩ ![] hS (constant (F := Ideal) ⟨0, ![]⟩ .f32 0x3F800000#32)))) hsc (ix2 p (0 : Fin 1))
      = Ideal.div (Ideal.ofBits .f32 0x3F800000#32) (max (deg (ix1 p)) (Ideal.ofBits .f32 0x3F800000#32)) := by
    rw [LibLayout.shapeCast_a_a1_apply]
    rfl
  have ebias : shapeCast ⟨2, ![1, N]⟩ b hsb (ix2 (0 : Fin 1) q) = b (ix1 q) := congrFun (rowVec_shapeCast b hsb) (ix1 q)
  show ((∑ k : Fin K, h (ix2 p k) * concatenate (⟨2, ![C, N]⟩ : Shape) 0 [⟨(⟨2, ![K, N]⟩ : Shape), ws⟩, ⟨(⟨2, ![K, N]⟩ : Shape), wn⟩] hcat
          (ix2 (⟨k.val, _⟩ : Fin C) q))
      + ∑ k : Fin K, (msg (ix2 p k) * shapeCast ⟨2, ![A, 1]⟩ (Host.divf (broadcastInDim ⟨1, ![A]⟩ ![] hS (constant (F := Ideal) ⟨0, ![]⟩ .f32 0x3F800000#32))
            (maximumf deg (broadcastInDim ⟨1, ![A]⟩ ![] hS (constant (F := Ideal) ⟨0, ![]⟩ .f32 0x3F800000#32)))) hsc (ix2 p (0 : Fin 1)))
          * concatenate (⟨2, ![C, N]⟩ : Shape) 0 [⟨(⟨2, ![K, N]⟩ : Shape), ws⟩, ⟨(⟨2, ![K, N]⟩ : Shape), wn⟩] hcat
            (ix2 (⟨k.val + K, _⟩ : Fin C) q))
      + shapeCast ⟨2, ![1, N]⟩ b hsb (ix2 (0 : Fin 1) q)
    = ((∑ k : Fin K, h (ix2 p k) * ws (ix2 k q))
      + ∑ k : Fin K, Ideal.div (msg (ix2 p k)) (max (deg (ix1 p)) (Ideal.ofBits .f32 0x3F800000#32)) * wn (ix2 k q))
      + b (ix1 q)
  refine congrArg₂ (· + ·) (congrArg₂ (· + ·) (Finset.sum_congr rfl fun k _ => ?_) (Finset.sum_congr rfl fun k _ => ?_)) ebias
  · rw [etop k]
  · rw [einv, ebot k, mul_recip _ (max_one_ne_zero (deg (ix1 p)))]

/-! ## The kernel's body on a tile of rows -/

/-- One product over the 2K lanes of the joined rows is the two K-lane sums. -/
theorem joined_sum {K C : Nat} (hC : K + K = C) (f : Fin C → EReal) :
    ∑ k : Fin C, f k = (∑ k : Fin K, f ⟨k.val, by have := k.isLt; omega⟩) + ∑ k : Fin K, f ⟨k.val + K, by have := k.isLt; omega⟩ := by
  subst hC
  rw [Fin.sum_univ_add]
  refine congrArg₂ (· + ·) (Finset.sum_congr rfl fun k _ => congrArg f (Fin.ext rfl))
    (Finset.sum_congr rfl fun k _ => congrArg f (Fin.ext ?_))
  show K + k.val = k.val + K
  omega

/-- The body's value before the activation: own rows y0 joined along the lanes with the message sums times the
    broadcast reciprocal column, one product with the stacked weights into a zero accumulator, the bias row repeated
    down the rows.  It is the kernel's arrangement of the layer on the tile. -/
theorem sage_tile {A K C N : Nat} (hC : K + K = C) (y0 : FVec Ideal ⟨2, ![A, K]⟩ .bf16)
    (x1 : FVec Ideal ⟨2, ![A, K]⟩ .f32) (x2 : FVec Ideal ⟨2, ![A, 1]⟩ .f32) (x3 : FVec Ideal ⟨2, ![C, N]⟩ .bf16)
    (x4 : FVec Ideal ⟨2, ![1, N]⟩ .f32)
    (d : DotDims ⟨2, ![A, C]⟩ ⟨2, ![C, N]⟩ ⟨2, ![A, N]⟩) (hd : d = DotDims.plain A C N)
    (h1 : (⟨2, ![A, K]⟩ : Shape).ShapeCasts ⟨2, ![A, K]⟩) (h2 : (⟨2, ![A, 1]⟩ : Shape).ShapeCasts ⟨2, ![A, 1]⟩)
    (hb2 : (⟨2, ![A, 1]⟩ : Shape).Broadcasts ⟨2, ![A, K]⟩) (hlt : FTy.bits .bf16 < FTy.bits .f32)
    (hcat : Shape.Concatenates [(⟨2, ![A, K]⟩ : Shape), (⟨2, ![A, K]⟩ : Shape)] (⟨2, ![A, C]⟩ : Shape) 1)
    (h3 : (⟨2, ![C, N]⟩ : Shape).ShapeCasts ⟨2, ![C, N]⟩) (h4 : (⟨2, ![1, N]⟩ : Shape).ShapeCasts ⟨2, ![1, N]⟩)
    (hb4 : (⟨2, ![1, N]⟩ : Shape).Broadcasts ⟨2, ![A, N]⟩) :
    addf (matmul d none
        (concatenate (⟨2, ![A, C]⟩ : Shape) 1 [⟨(⟨2, ![A, K]⟩ : Shape), y0⟩,
          ⟨(⟨2, ![A, K]⟩ : Shape), truncf .bf16 (mulf (shapeCast ⟨2, ![A, K]⟩ x1 h1)
            (broadcastTo ⟨2, ![A, K]⟩ (shapeCast ⟨2, ![A, 1]⟩ x2 h2) hb2)) hlt⟩] hcat)
        (shapeCast ⟨2, ![C, N]⟩ x3 h3) (constant ⟨2, ![A, N]⟩ .f32 0x00000000#32))
      (broadcastTo ⟨2, ![A, N]⟩ (shapeCast ⟨2, ![1, N]⟩ x4 h4) hb4)
    = sageK A K C N hC y0 x1 x2 x3 x4 := by
  subst hd
  rw [shapeCast_self x1 h1, shapeCast_self x2 h2, shapeCast_self x3 h3, shapeCast_self x4 h4]
  funext j
  obtain ⟨p, q, rfl⟩ : ∃ (p : Fin A) (q : Fin N), j = ix2 p q := ⟨j 0, j 1, eq_ix2 j⟩
  rw [addf_apply]
  have eb : broadcastTo ⟨2, ![A, N]⟩ x4 hb4 (ix2 p q) = x4 (ix2 (0 : Fin 1) q) :=
    broadcastTo_apply x4 hb4 (ix2 p q) (ix2 (0 : Fin 1) q) (by
      intro a
      match a with
      | ⟨0, _⟩ => rfl
      | ⟨1, _⟩ =>
        show q.val = if N = 1 then 0 else q.val
        split
        · have := q.isLt; omega
        · rfl)
  rw [eb]
  refine congrArg (· + x4 (ix2 (0 : Fin 1) q)) ?_
  refine (Ideal.matmul_constant_zero_apply (DotDims.plain A C N) none _ x3 (ix2 p q)).trans ?_
  refine (plain_sum A C N _ x3 (ix2 p q)).trans ?_
  refine (joined_sum hC _).trans ?_
  refine congrArg₂ (· + ·) (Finset.sum_congr rfl fun k _ => ?_) (Finset.sum_congr rfl fun k _ => ?_)
  · refine congrArg (· * x3 (ix2 (⟨k.val, _⟩ : Fin C) q)) ?_
    exact LibJoin.join_left y0 _ hcat p ⟨k.val, by have := k.isLt; omega⟩ k rfl
  · refine congrArg (· * x3 (ix2 (⟨k.val + K, _⟩ : Fin C) q)) ?_
    refine (LibJoin.join_right y0 _ hcat p ⟨k.val + K, by have := k.isLt; omega⟩ k rfl).trans ?_
    show x1 (ix2 p k) * broadcastTo ⟨2, ![A, K]⟩ x2 hb2 (ix2 p k) = x1 (ix2 p k) * x2 (ix2 p (0 : Fin 1))
    rw [LibLayout.broadcastTo_a1_ab_apply]

end Cert.Sage

end
-- ==== Proof.RefLayers.lean ====
/-
  The reference's three layers, each read as the layer function of its own earlier stages.

  Layer by layer the reference takes the first rows of the previous activations, sums the gathered neighbour rows into
  their destination rows, counts the neighbours, divides the sums by the count raised to one, multiplies the two
  matrices, adds them and the bias, and (in the first two layers) takes the maximum with zero.  The gather, the two
  scatter-adds and the slice are left as they are: nothing is needed of them but that they are the same arrays on both
  sides.  The dense part of each layer is the layer function of those arrays.
-/
import proofs.«154911_j55027120997010_2_alg».proof.Proof.Gen.ReferenceIdeal.Read
import proofs.«154911_j55027120997010_2_alg».proof.Proof.SageRow

noncomputable section

namespace Cert.ReferenceIdeal.Sage

open Cert.ReferenceIdeal Cert.ReferenceIdeal.Gen Cert.ReferenceIdeal.Read Cert.Sage Cert.LibLayers
open Idealize.ShloMosaic Idealize.ShloMosaic.ValueIdx

/-- The first layer's activations: relu of the layer of the first 67584 rows of x, the neighbour sums and the degrees. -/
theorem layer0 (x0 : (⟨S1081344x128, .f32⟩ : BufTy).Contents (Elt Ideal)) (x1 x2 : (⟨S1013760, .i32⟩ : BufTy).Contents (Elt Ideal))
    (x7 x8 : (⟨S128x256, .f32⟩ : BufTy).Contents (Elt Ideal)) (x9 : (⟨S256, .f32⟩ : BufTy).Contents (Elt Ideal)) :
    val_main_v26 (F := Ideal) x0 x1 x2 x7 x8 x9
      = relu (sage 67584 128 256 (val_main_v0 (F := Ideal) x0) (val_main_v10 (F := Ideal) x0 x1 x2) (val_main_v14 (F := Ideal) x2) x7 x8 x9) := by
  unfold val_main_v26 val_main_call0_v0 val_main_call0_cst
  refine (relu_host _ bcast_S_S67584x256).trans (congrArg relu ?_)
  unfold val_main_v25 val_main_v24 val_main_v23 val_main_v22 val_main_v21 val_main_v20 val_main_v19 val_main_v18 val_main_v17
    val_main_v16 val_main_v15 val_main_cst_3
  exact sage_host (val_main_v0 (F := Ideal) x0) (val_main_v10 (F := Ideal) x0 x1 x2) (val_main_v14 (F := Ideal) x2) x7 x8 x9
    dot_S67584x128_S128x256_S67584x256_1_0_0_1_n_n rfl bcast_S_S67584 bcast_S67584_S67584x1_0 bcast_S67584x1_S67584x128_0_1
    bcast_S256_S1x256_1 bcast_S1x256_S67584x256_0_1

/-- The second layer's activations: relu of the layer of the first 6144 rows of the first layer's activations, their
    neighbour sums and the degrees. -/
theorem layer1 (x0 : (⟨S1081344x128, .f32⟩ : BufTy).Contents (Elt Ideal)) (x1 x2 : (⟨S1013760, .i32⟩ : BufTy).Contents (Elt Ideal))
    (x3 x4 : (⟨S61440, .i32⟩ : BufTy).Contents (Elt Ideal))
    (x7 x8 : (⟨S128x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal)) :
    val_main_v53 (F := Ideal) x0 x1 x2 x3 x4 x7 x8 x9 x10 x11 x12
      = relu (sage 6144 256 256 (val_main_v27 (F := Ideal) x0 x1 x2 x7 x8 x9) (val_main_v37 (F := Ideal) x0 x1 x2 x3 x4 x7 x8 x9)
          (val_main_v41 (F := Ideal) x4) x10 x11 x12) := by
  unfold val_main_v53 val_main_call1_v0 val_main_call1_cst
  refine (relu_host _ bcast_S_S6144x256).trans (congrArg relu ?_)
  unfold val_main_v52 val_main_v51 val_main_v50 val_main_v49 val_main_v48 val_main_v47 val_main_v46 val_main_v45 val_main_v44
    val_main_v43 val_main_v42 val_main_cst_9
  exact sage_host (val_main_v27 (F := Ideal) x0 x1 x2 x7 x8 x9) (val_main_v37 (F := Ideal) x0 x1 x2 x3 x4 x7 x8 x9)
    (val_main_v41 (F := Ideal) x4) x10 x11 x12
    dot_S6144x256_S256x256_S6144x256_1_0_0_1_n_n rfl bcast_S_S6144 bcast_S6144_S6144x1_0 bcast_S6144x1_S6144x256_0_1
    bcast_S256_S1x256_1 bcast_S1x256_S6144x256_0_1

/-- The result: the layer (no relu) of the first 1024 rows of the second layer's activations, their neighbour sums and
    the degrees. -/
theorem layer2 (x0 : (⟨S1081344x128, .f32⟩ : BufTy).Contents (Elt Ideal)) (x1 x2 : (⟨S1013760, .i32⟩ : BufTy).Contents (Elt Ideal))
    (x3 x4 : (⟨S61440, .i32⟩ : BufTy).Contents (Elt Ideal)) (x5 x6 : (⟨S5120, .i32⟩ : BufTy).Contents (Elt Ideal))
    (x7 x8 : (⟨S128x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x64, .f32⟩ : BufTy).Contents (Elt Ideal)) (x15 : (⟨S64, .f32⟩ : BufTy).Contents (Elt Ideal)) :
    val_main_v79 (F := Ideal) x0 x1 x2 x3 x4 x5 x6 x7 x8 x9 x10 x11 x12 x13 x14 x15
      = sage 1024 256 64 (val_main_v54 (F := Ideal) x0 x1 x2 x3 x4 x7 x8 x9 x10 x11 x12)
          (val_main_v64 (F := Ideal) x0 x1 x2 x3 x4 x5 x6 x7 x8 x9 x10 x11 x12) (val_main_v68 (F := Ideal) x6) x13 x14 x15 := by
  unfold val_main_v79 val_main_v78 val_main_v77 val_main_v76 val_main_v75 val_main_v74 val_main_v73 val_main_v72 val_main_v71
    val_main_v70 val_main_v69 val_main_cst_15
  exact sage_host (val_main_v54 (F := Ideal) x0 x1 x2 x3 x4 x7 x8 x9 x10 x11 x12)
    (val_main_v64 (F := Ideal) x0 x1 x2 x3 x4 x5 x6 x7 x8 x9 x10 x11 x12) (val_main_v68 (F := Ideal) x6) x13 x14 x15
    dot_S1024x256_S256x64_S1024x64_1_0_0_1_n_n rfl bcast_S_S1024 bcast_S1024_S1024x1_0 bcast_S1024x1_S1024x256_0_1
    bcast_S64_S1x64_1 bcast_S1x64_S1024x64_0_1

end Cert.ReferenceIdeal.Sage

end
-- ==== Proof.Region0.lean ====
/-
  The first launch: what its result array holds.

  The launch walks over blocks of 2048 destination rows.  At a block it reads that block of the rows' own
  features, of the neighbour sums and of the reciprocal column, and the whole stacked weight matrix and bias row, and
  writes the block of the result.  Because an entry of a layer depends on its own row only, the value written at
  row p of block t is the layer of ALL rows at row 2048·t + p.  The blocks tile the 67584 rows (row r lies in block
  r / 2048), so after the launch the whole result array is the layer under relu of the whole operand arrays, in
  the kernel's arrangement (reciprocal column, stacked weights, bias row).  This holds for any contents of the
  buffers at the moment the launch begins.
-/
import proofs.«154911_j55027120997010_2_alg».proof.Proof.Gen.KernelIdeal.Frame
import proofs.«154911_j55027120997010_2_alg».proof.Proof.SageRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sage

open Cert.KernelIdeal Cert.KernelIdeal.Gen Cert.Sage Cert.LibLayers

variable (V : (c : Dev nD) → (b : Ref sig .tc) → Buf (Elt Ideal) ((c : Thread nD τ).loc b))

theorem hz_r0 : (![0, 0] : Fin 2 → Nat) = fun _ => 0 := funext fun a => by fin_cases a <;> rfl

/-- What the body stores, from the blocks it loads: the layer of the tile's rows in the kernel's arrangement, under relu. -/
theorem pay0_eq (x0 : Vec Ideal S2048x128 .f32) (x1 : Vec Ideal S2048x128 .f32) (x2 : Vec Ideal S2048x1 .f32)
    (x3 : Vec Ideal S256x256 .bf16) (x4 : Vec Ideal S1x256 .f32) :
    k0_pay1 x0 x1 x2 x3 x4 = relu (sageK 2048 128 256 256 rfl x0 x1 x2 x3 x4) := by
  unfold k0_pay1
  refine (congrArg relu (sage_tile (A := 2048) (K := 128) (C := 256) (N := 256) rfl
    (truncf .bf16 (shapeCast S2048x128 x0 shapeCasts_S2048x128_S2048x128) bitsLt_bf16_f32) x1 x2 x3 x4
    dot_S2048x256_S256x256_S2048x256_1_0_0_1_n_n rfl shapeCasts_S2048x128_S2048x128 shapeCasts_S2048x1_S2048x1
    broadcasts_S2048x1_S2048x128 bitsLt_bf16_f32 concatenates_S2048x128_S2048x128_S2048x256_d1
    shapeCasts_S256x256_S256x256 shapeCasts_S1x256_S1x256 broadcasts_S1x256_S2048x256)).trans ?_
  rw [shapeCast_self x0 shapeCasts_S2048x128_S2048x128]
  rfl

/-- The printed index maps, decided over the grid: the row windows sit at block (t, 0), the weights and the bias row at
    block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t of the rows' own features is row 2048·t + p of the array. -/
theorem blk0_0 (c : Dev nD) (t : Fin cfg0.N) (p : Fin 2048) (k : Fin 128) (r : Fin 67584) (hr : r.val = t.val * 2048 + p.val) :
    (iblk0 V c 0 t : Vec Ideal S2048x128 .f32) (ix2 p k) = (V c main_v0 : S67584x128.Idx → Elt Ideal .f32) (ix2 r k) := by
  obtain ⟨e0, e1, -⟩ := idx0 t
  unfold iblk0
  rw [View.read_apply]
  show V c main_v0 _ = V c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 128 + 1 * k.val = k.val; rw [e1]; omega

/-- Row p of block t of the neighbour sums is row 2048·t + p of the array. -/
theorem blk0_1 (c : Dev nD) (t : Fin cfg0.N) (p : Fin 2048) (k : Fin 128) (r : Fin 67584) (hr : r.val = t.val * 2048 + p.val) :
    (iblk0 V c 1 t : Vec Ideal S2048x128 .f32) (ix2 p k) = (V c main_v10 : S67584x128.Idx → Elt Ideal .f32) (ix2 r k) := by
  obtain ⟨-, -, e0, e1, -⟩ := idx0 t
  unfold iblk0
  rw [View.read_apply]
  show V c main_v10 _ = V c main_v10 _
  congr 1
  funext a
  apply Fin.ext
  match a with
  | ⟨0, _⟩ => show win0_1.index t (0 : Fin 2) * 2048 + 1 * p.val = r.val; rw [e0, hr]; omega
  | ⟨1, _⟩ => show win0_1.index t (1 : Fin 2) * 128 + 1 * k.val = k.val; rw [e1]; omega

/-- Entry p of block t of the reciprocal column is entry 2048·t + p of the column. -/
theorem blk0_2 (c : Dev nD) (t : Fin cfg0.N) (p : Fin 2048) (r : Fin 67584) (hr : r.val = t.val * 2048 + p.val) :
    (iblk0 V c 2 t : Vec Ideal S2048x1 .f32) (ix2 p (0 : Fin 1)) = (V c main_v19 : S67584x1.Idx → Elt Ideal .f32) (ix2 r (0 : Fin 1)) := by
  obtain ⟨-, -, -, -, e0, e1, -⟩ := idx0 t
  unfold iblk0
  rw [View.read_apply]
  show V c main_v19 _ = V c main_v19 _
  congr 1
  funext a
  apply Fin.ext
  match a with
  | ⟨0, _⟩ => show win0_2.index t (0 : Fin 2) * 2048 + 1 * p.val = r.val; rw [e0, hr]; omega
  | ⟨1, _⟩ => show win0_2.index t (1 : Fin 2) * 1 + 1 * 0 = 0; rw [e1]

/-- The one block of the stacked weights is the whole matrix. -/
theorem blk0_3 (c : Dev nD) (t : Fin cfg0.N) (k : Fin 256) (q : Fin 256) :
    (iblk0 V c 3 t : Vec Ideal S256x256 .bf16) (ix2 k q) = (V c main_v21 : S256x256.Idx → Elt Ideal .bf16) (ix2 k q) := by
  obtain ⟨-, -, -, -, -, -, e0, e1, -⟩ := idx0 t
  unfold iblk0
  rw [View.read_apply]
  show V c main_v21 _ = V c main_v21 _
  congr 1
  funext a
  apply Fin.ext
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The one block of the bias row is the whole row. -/
theorem blk0_4 (c : Dev nD) (t : Fin cfg0.N) (q : Fin 256) :
    (iblk0 V c 4 t : Vec Ideal S1x256 .f32) (ix2 (0 : Fin 1) q) = (V c main_v22 : S1x256.Idx → Elt Ideal .f32) (ix2 (0 : Fin 1) q) := by
  obtain ⟨-, -, -, -, -, -, -, -, e0, e1, -⟩ := idx0 t
  unfold iblk0
  rw [View.read_apply]
  show V c main_v22 _ = V c main_v22 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * q.val = q.val; rw [e1]; omega

/-- The result array after the launch, as one function of the operand arrays the launch finds. -/
abbrev G0 (c : Dev nD) : S67584x256.Idx → EReal :=
  relu (sageK 67584 128 256 256 rfl (V c main_v0) (V c main_v10) (V c main_v19) (V c main_v21) (V c main_v22))

/-- What point t writes back is block t of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz_r0]
  simp only [View.ld_unit_zero (S := S2048x128) hz_r0, View.ld_unit_zero (S := S2048x1) hz_r0,
    View.ld_unit_zero (S := S256x256) hz_r0, View.ld_unit_zero (S := S1x256) hz_r0]
  rw [pay0_eq]
  obtain ⟨-, -, -, -, -, -, -, -, -, -, e50, e51⟩ := idx0 t
  have hN : cfg0.N = 33 := N_0
  have ht : t.val < 33 := by have := t.isLt; omega
  funext j
  obtain ⟨p, q, rfl⟩ : ∃ (p : Fin 2048) (q : Fin 256), j = ix2 p q := ⟨j 0, j 1, eq_ix2 j⟩
  show relu (sageK 2048 128 256 256 rfl (iblk0 V c 0 t) (iblk0 V c 1 t) (iblk0 V c 2 t) (iblk0 V c 3 t) (iblk0 V c 4 t)) (ix2 p q)
    = G0 V c (((cfg0.win 5).blk t).view.emb (ix2 p q))
  have hemb : ((cfg0.win 5).blk t).view.emb (ix2 p q)
      = ix2 (⟨t.val * 2048 + p.val, by have := p.isLt; omega⟩ : Fin 67584) q := by
    funext a
    apply Fin.ext
    match a with
    | ⟨0, _⟩ => show win0_5.index t (0 : Fin 2) * 2048 + 1 * p.val = t.val * 2048 + p.val; rw [e50]; omega
    | ⟨1, _⟩ => show win0_5.index t (1 : Fin 2) * 256 + 1 * q.val = q.val; rw [e51]; omega
  rw [hemb]
  refine relu_congr _ _ _ _ ?_
  exact sageK_row rfl _ _ _ _ _ _ _ _ _ _ p _ q (fun k => blk0_0 V c t p k _ rfl) (fun k => blk0_1 V c t p k _ rfl)
    (blk0_2 V c t p _ rfl) (fun k => blk0_3 V c t k q) (blk0_4 V c t q)

/-- Every row of the result lies in the block of some point: row r in block r / 2048. -/
theorem cover0 (i : S67584x256.Idx) :
    ∃ t : Fin cfg0.N, (cfg0.win 5).flush t = true ∧ i ∈ ((cfg0.win 5).blk t).view.set := by
  have hN : cfg0.N = 33 := N_0
  have hi0 : (i 0).val < 67584 := (i 0).isLt
  have hi1 : (i 1).val < 256 := (i 1).isLt
  have htl : (i 0).val / 2048 < cfg0.N := by rw [hN]; omega
  obtain ⟨-, -, -, -, -, -, -, -, -, -, e50, e51⟩ := idx0 ⟨(i 0).val / 2048, htl⟩
  refine ⟨⟨(i 0).val / 2048, htl⟩, flush0_5 _, ?_⟩
  show i ∈ ((View.whole main_v23).slice (win0_5.rect ⟨(i 0).val / 2048, htl⟩)).set
  rw [View.set_slice_whole, Rect.mem_set_unit]
  intro a
  match a with
  | ⟨0, _⟩ =>
    show win0_5.index ⟨(i 0).val / 2048, htl⟩ (0 : Fin 2) * 2048 ≤ (i 0).val
      ∧ (i 0).val < win0_5.index ⟨(i 0).val / 2048, htl⟩ (0 : Fin 2) * 2048 + 2048
    rw [e50]
    show (i 0).val / 2048 * 2048 ≤ (i 0).val ∧ (i 0).val < (i 0).val / 2048 * 2048 + 2048
    omega
  | ⟨1, _⟩ =>
    show win0_5.index ⟨(i 0).val / 2048, htl⟩ (1 : Fin 2) * 256 ≤ (i 1).val
      ∧ (i 1).val < win0_5.index ⟨(i 0).val / 2048, htl⟩ (1 : Fin 2) * 256 + 256
    rw [e51]
    omega

/-- So the result array ends holding that function, whatever the buffers held when the launch began. -/
theorem final0 (c : Dev nD) : (dat0 V c).arrAt 5 cfg0.N = G0 V c :=
  (dat0 V c).arrAt_eq_of_cover 5 (G0 V c) (fun t _ => flushed0 V c t) (cover0)

end Cert.KernelIdeal.Sage

end
-- ==== Proof.Region1.lean ====
/-
  The second launch: what its result array holds.

  The launch walks over blocks of 1024 destination rows.  At a block it reads that block of the rows' own
  features, of the neighbour sums and of the reciprocal column, and the whole stacked weight matrix and bias row, and
  writes the block of the result.  Because an entry of a layer depends on its own row only, the value written at
  row p of block t is the layer of ALL rows at row 1024·t + p.  The blocks tile the 6144 rows (row r lies in block
  r / 1024), so after the launch the whole result array is the layer under relu of the whole operand arrays, in
  the kernel's arrangement (reciprocal column, stacked weights, bias row).  This holds for any contents of the
  buffers at the moment the launch begins.
-/
import proofs.«154911_j55027120997010_2_alg».proof.Proof.Gen.KernelIdeal.Frame
import proofs.«154911_j55027120997010_2_alg».proof.Proof.SageRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sage

open Cert.KernelIdeal Cert.KernelIdeal.Gen Cert.Sage Cert.LibLayers

variable (V : (c : Dev nD) → (b : Ref sig .tc) → Buf (Elt Ideal) ((c : Thread nD τ).loc b))

theorem hz_r1 : (![0, 0] : Fin 2 → Nat) = fun _ => 0 := funext fun a => by fin_cases a <;> rfl

/-- What the body stores, from the blocks it loads: the layer of the tile's rows in the kernel's arrangement, under relu. -/
theorem pay1_eq (x0 : Vec Ideal S1024x256 .bf16) (x1 : Vec Ideal S1024x256 .f32) (x2 : Vec Ideal S1024x1 .f32)
    (x3 : Vec Ideal S512x256 .bf16) (x4 : Vec Ideal S1x256 .f32) :
    k1_pay1 x0 x1 x2 x3 x4 = relu (sageK 1024 256 512 256 rfl x0 x1 x2 x3 x4) := by
  unfold k1_pay1
  refine (congrArg relu (sage_tile (A := 1024) (K := 256) (C := 512) (N := 256) rfl
    (shapeCast S1024x256 x0 shapeCasts_S1024x256_S1024x256) x1 x2 x3 x4
    dot_S1024x512_S512x256_S1024x256_1_0_0_1_n_n rfl shapeCasts_S1024x256_S1024x256 shapeCasts_S1024x1_S1024x1
    broadcasts_S1024x1_S1024x256 bitsLt_bf16_f32 concatenates_S1024x256_S1024x256_S1024x512_d1
    shapeCasts_S512x256_S512x256 shapeCasts_S1x256_S1x256 broadcasts_S1x256_S1024x256)).trans ?_
  rw [shapeCast_self x0 shapeCasts_S1024x256_S1024x256]

/-- The printed index maps, decided over the grid: the row windows sit at block (t, 0), the weights and the bias row at
    block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t of the rows' own features is row 1024·t + p of the array. -/
theorem blk1_0 (c : Dev nD) (t : Fin cfg1.N) (p : Fin 1024) (k : Fin 256) (r : Fin 6144) (hr : r.val = t.val * 1024 + p.val) :
    (iblk1 V c 0 t : Vec Ideal S1024x256 .bf16) (ix2 p k) = (V c main_v24 : S6144x256.Idx → Elt Ideal .bf16) (ix2 r k) := by
  obtain ⟨e0, e1, -⟩ := idx1 t
  unfold iblk1
  rw [View.read_apply]
  show V c main_v24 _ = V c main_v24 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 256 + 1 * k.val = k.val; rw [e1]; omega

/-- Row p of block t of the neighbour sums is row 1024·t + p of the array. -/
theorem blk1_1 (c : Dev nD) (t : Fin cfg1.N) (p : Fin 1024) (k : Fin 256) (r : Fin 6144) (hr : r.val = t.val * 1024 + p.val) :
    (iblk1 V c 1 t : Vec Ideal S1024x256 .f32) (ix2 p k) = (V c main_v35 : S6144x256.Idx → Elt Ideal .f32) (ix2 r k) := by
  obtain ⟨-, -, e0, e1, -⟩ := idx1 t
  unfold iblk1
  rw [View.read_apply]
  show V c main_v35 _ = V c main_v35 _
  congr 1
  funext a
  apply Fin.ext
  match a with
  | ⟨0, _⟩ => show win1_1.index t (0 : Fin 2) * 1024 + 1 * p.val = r.val; rw [e0, hr]; omega
  | ⟨1, _⟩ => show win1_1.index t (1 : Fin 2) * 256 + 1 * k.val = k.val; rw [e1]; omega

/-- Entry p of block t of the reciprocal column is entry 1024·t + p of the column. -/
theorem blk1_2 (c : Dev nD) (t : Fin cfg1.N) (p : Fin 1024) (r : Fin 6144) (hr : r.val = t.val * 1024 + p.val) :
    (iblk1 V c 2 t : Vec Ideal S1024x1 .f32) (ix2 p (0 : Fin 1)) = (V c main_v44 : S6144x1.Idx → Elt Ideal .f32) (ix2 r (0 : Fin 1)) := by
  obtain ⟨-, -, -, -, e0, e1, -⟩ := idx1 t
  unfold iblk1
  rw [View.read_apply]
  show V c main_v44 _ = V c main_v44 _
  congr 1
  funext a
  apply Fin.ext
  match a with
  | ⟨0, _⟩ => show win1_2.index t (0 : Fin 2) * 1024 + 1 * p.val = r.val; rw [e0, hr]; omega
  | ⟨1, _⟩ => show win1_2.index t (1 : Fin 2) * 1 + 1 * 0 = 0; rw [e1]

/-- The one block of the stacked weights is the whole matrix. -/
theorem blk1_3 (c : Dev nD) (t : Fin cfg1.N) (k : Fin 512) (q : Fin 256) :
    (iblk1 V c 3 t : Vec Ideal S512x256 .bf16) (ix2 k q) = (V c main_v46 : S512x256.Idx → Elt Ideal .bf16) (ix2 k q) := by
  obtain ⟨-, -, -, -, -, -, e0, e1, -⟩ := idx1 t
  unfold iblk1
  rw [View.read_apply]
  show V c main_v46 _ = V c main_v46 _
  congr 1
  funext a
  apply Fin.ext
  match a with
  | ⟨0, _⟩ => show win1_3.index t (0 : Fin 2) * 512 + 1 * k.val = k.val; rw [e0]; omega
  | ⟨1, _⟩ => show win1_3.index t (1 : Fin 2) * 256 + 1 * q.val = q.val; rw [e1]; omega

/-- The one block of the bias row is the whole row. -/
theorem blk1_4 (c : Dev nD) (t : Fin cfg1.N) (q : Fin 256) :
    (iblk1 V c 4 t : Vec Ideal S1x256 .f32) (ix2 (0 : Fin 1) q) = (V c main_v47 : S1x256.Idx → Elt Ideal .f32) (ix2 (0 : Fin 1) q) := by
  obtain ⟨-, -, -, -, -, -, -, -, e0, e1, -⟩ := idx1 t
  unfold iblk1
  rw [View.read_apply]
  show V c main_v47 _ = V c main_v47 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * q.val = q.val; rw [e1]; omega

/-- The result array after the launch, as one function of the operand arrays the launch finds. -/
abbrev G1 (c : Dev nD) : S6144x256.Idx → EReal :=
  relu (sageK 6144 256 512 256 rfl (V c main_v24) (V c main_v35) (V c main_v44) (V c main_v46) (V c main_v47))

/-- What point t writes back is block t of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz_r1]
  simp only [View.ld_unit_zero (S := S1024x256) hz_r1, View.ld_unit_zero (S := S1024x1) hz_r1,
    View.ld_unit_zero (S := S512x256) hz_r1, View.ld_unit_zero (S := S1x256) hz_r1]
  rw [pay1_eq]
  obtain ⟨-, -, -, -, -, -, -, -, -, -, e50, e51⟩ := idx1 t
  have hN : cfg1.N = 6 := N_1
  have ht : t.val < 6 := by have := t.isLt; omega
  funext j
  obtain ⟨p, q, rfl⟩ : ∃ (p : Fin 1024) (q : Fin 256), j = ix2 p q := ⟨j 0, j 1, eq_ix2 j⟩
  show relu (sageK 1024 256 512 256 rfl (iblk1 V c 0 t) (iblk1 V c 1 t) (iblk1 V c 2 t) (iblk1 V c 3 t) (iblk1 V c 4 t)) (ix2 p q)
    = G1 V c (((cfg1.win 5).blk t).view.emb (ix2 p q))
  have hemb : ((cfg1.win 5).blk t).view.emb (ix2 p q)
      = ix2 (⟨t.val * 1024 + p.val, by have := p.isLt; omega⟩ : Fin 6144) q := by
    funext a
    apply Fin.ext
    match a with
    | ⟨0, _⟩ => show win1_5.index t (0 : Fin 2) * 1024 + 1 * p.val = t.val * 1024 + p.val; rw [e50]; omega
    | ⟨1, _⟩ => show win1_5.index t (1 : Fin 2) * 256 + 1 * q.val = q.val; rw [e51]; omega
  rw [hemb]
  refine relu_congr _ _ _ _ ?_
  exact sageK_row rfl _ _ _ _ _ _ _ _ _ _ p _ q (fun k => blk1_0 V c t p k _ rfl) (fun k => blk1_1 V c t p k _ rfl)
    (blk1_2 V c t p _ rfl) (fun k => blk1_3 V c t k q) (blk1_4 V c t q)

/-- Every row of the result lies in the block of some point: row r in block r / 1024. -/
theorem cover1 (i : S6144x256.Idx) :
    ∃ t : Fin cfg1.N, (cfg1.win 5).flush t = true ∧ i ∈ ((cfg1.win 5).blk t).view.set := by
  have hN : cfg1.N = 6 := N_1
  have hi0 : (i 0).val < 6144 := (i 0).isLt
  have hi1 : (i 1).val < 256 := (i 1).isLt
  have htl : (i 0).val / 1024 < cfg1.N := by rw [hN]; omega
  obtain ⟨-, -, -, -, -, -, -, -, -, -, e50, e51⟩ := idx1 ⟨(i 0).val / 1024, htl⟩
  refine ⟨⟨(i 0).val / 1024, htl⟩, flush1_5 _, ?_⟩
  show i ∈ ((View.whole main_v48).slice (win1_5.rect ⟨(i 0).val / 1024, htl⟩)).set
  rw [View.set_slice_whole, Rect.mem_set_unit]
  intro a
  match a with
  | ⟨0, _⟩ =>
    show win1_5.index ⟨(i 0).val / 1024, htl⟩ (0 : Fin 2) * 1024 ≤ (i 0).val
      ∧ (i 0).val < win1_5.index ⟨(i 0).val / 1024, htl⟩ (0 : Fin 2) * 1024 + 1024
    rw [e50]
    show (i 0).val / 1024 * 1024 ≤ (i 0).val ∧ (i 0).val < (i 0).val / 1024 * 1024 + 1024
    omega
  | ⟨1, _⟩ =>
    show win1_5.index ⟨(i 0).val / 1024, htl⟩ (1 : Fin 2) * 256 ≤ (i 1).val
      ∧ (i 1).val < win1_5.index ⟨(i 0).val / 1024, htl⟩ (1 : Fin 2) * 256 + 256
    rw [e51]
    omega

/-- So the result array ends holding that function, whatever the buffers held when the launch began. -/
theorem final1 (c : Dev nD) : (dat1 V c).arrAt 5 cfg1.N = G1 V c :=
  (dat1 V c).arrAt_eq_of_cover 5 (G1 V c) (fun t _ => flushed1 V c t) (cover1)

end Cert.KernelIdeal.Sage

end
-- ==== Proof.Region2.lean ====
/-
  The third launch: what its result array holds.

  The launch has one grid point, whose block is all 1024 destination rows: it reads the rows' own features, the
  neighbour sums, the reciprocal column, the stacked weight matrix and the bias row whole, and writes the whole result.
  The argument is the one of the earlier launches with a single block: the value written at row p is the layer of
  all rows at row 1024·0 + p, and the one block covers the array.  So after the launch the result array is the layer
  (no relu in the last layer) of the whole operand arrays, in the kernel's arrangement (reciprocal column, stacked
  weights, bias row), whatever the buffers held when the launch began.
-/
import proofs.«154911_j55027120997010_2_alg».proof.Proof.Gen.KernelIdeal.Frame
import proofs.«154911_j55027120997010_2_alg».proof.Proof.SageRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sage

open Cert.KernelIdeal Cert.KernelIdeal.Gen Cert.Sage Cert.LibLayers

variable (V : (c : Dev nD) → (b : Ref sig .tc) → Buf (Elt Ideal) ((c : Thread nD τ).loc b))

theorem hz_r2 : (![0, 0] : Fin 2 → Nat) = fun _ => 0 := funext fun a => by fin_cases a <;> rfl

/-- What the body stores, from the blocks it loads: the layer of the tile's rows in the kernel's arrangement. -/
theorem pay2_eq (x0 : Vec Ideal S1024x256 .bf16) (x1 : Vec Ideal S1024x256 .f32) (x2 : Vec Ideal S1024x1 .f32)
    (x3 : Vec Ideal S512x64 .bf16) (x4 : Vec Ideal S1x64 .f32) :
    k2_pay1 x0 x1 x2 x3 x4 = sageK 1024 256 512 64 rfl x0 x1 x2 x3 x4 := by
  unfold k2_pay1
  refine (sage_tile (A := 1024) (K := 256) (C := 512) (N := 64) rfl
    (shapeCast S1024x256 x0 shapeCasts_S1024x256_S1024x256) x1 x2 x3 x4
    dot_S1024x512_S512x64_S1024x64_1_0_0_1_n_n rfl shapeCasts_S1024x256_S1024x256 shapeCasts_S1024x1_S1024x1
    broadcasts_S1024x1_S1024x256 bitsLt_bf16_f32 concatenates_S1024x256_S1024x256_S1024x512_d1
    shapeCasts_S512x64_S512x64 shapeCasts_S1x64_S1x64 broadcasts_S1x64_S1024x64).trans ?_
  rw [shapeCast_self x0 shapeCasts_S1024x256_S1024x256]

/-- The printed index maps, decided over the grid: the row windows sit at block (t, 0), the weights and the bias row at
    block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t of the rows' own features is row 1024·t + p of the array. -/
theorem blk2_0 (c : Dev nD) (t : Fin cfg2.N) (p : Fin 1024) (k : Fin 256) (r : Fin 1024) (hr : r.val = t.val * 1024 + p.val) :
    (iblk2 V c 0 t : Vec Ideal S1024x256 .bf16) (ix2 p k) = (V c main_v49 : S1024x256.Idx → Elt Ideal .bf16) (ix2 r k) := by
  obtain ⟨e0, e1, -⟩ := idx2 t
  unfold iblk2
  rw [View.read_apply]
  show V c main_v49 _ = V c main_v49 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 256 + 1 * k.val = k.val; rw [e1]; omega

/-- Row p of block t of the neighbour sums is row 1024·t + p of the array. -/
theorem blk2_1 (c : Dev nD) (t : Fin cfg2.N) (p : Fin 1024) (k : Fin 256) (r : Fin 1024) (hr : r.val = t.val * 1024 + p.val) :
    (iblk2 V c 1 t : Vec Ideal S1024x256 .f32) (ix2 p k) = (V c main_v60 : S1024x256.Idx → Elt Ideal .f32) (ix2 r k) := by
  obtain ⟨-, -, e0, e1, -⟩ := idx2 t
  unfold iblk2
  rw [View.read_apply]
  show V c main_v60 _ = V c main_v60 _
  congr 1
  funext a
  apply Fin.ext
  match a with
  | ⟨0, _⟩ => show win2_1.index t (0 : Fin 2) * 1024 + 1 * p.val = r.val; rw [e0, hr]; omega
  | ⟨1, _⟩ => show win2_1.index t (1 : Fin 2) * 256 + 1 * k.val = k.val; rw [e1]; omega

/-- Entry p of block t of the reciprocal column is entry 1024·t + p of the column. -/
theorem blk2_2 (c : Dev nD) (t : Fin cfg2.N) (p : Fin 1024) (r : Fin 1024) (hr : r.val = t.val * 1024 + p.val) :
    (iblk2 V c 2 t : Vec Ideal S1024x1 .f32) (ix2 p (0 : Fin 1)) = (V c main_v69 : S1024x1.Idx → Elt Ideal .f32) (ix2 r (0 : Fin 1)) := by
  obtain ⟨-, -, -, -, e0, e1, -⟩ := idx2 t
  unfold iblk2
  rw [View.read_apply]
  show V c main_v69 _ = V c main_v69 _
  congr 1
  funext a
  apply Fin.ext
  match a with
  | ⟨0, _⟩ => show win2_2.index t (0 : Fin 2) * 1024 + 1 * p.val = r.val; rw [e0, hr]; omega
  | ⟨1, _⟩ => show win2_2.index t (1 : Fin 2) * 1 + 1 * 0 = 0; rw [e1]

/-- The one block of the stacked weights is the whole matrix. -/
theorem blk2_3 (c : Dev nD) (t : Fin cfg2.N) (k : Fin 512) (q : Fin 64) :
    (iblk2 V c 3 t : Vec Ideal S512x64 .bf16) (ix2 k q) = (V c main_v71 : S512x64.Idx → Elt Ideal .bf16) (ix2 k q) := by
  obtain ⟨-, -, -, -, -, -, e0, e1, -⟩ := idx2 t
  unfold iblk2
  rw [View.read_apply]
  show V c main_v71 _ = V c main_v71 _
  congr 1
  funext a
  apply Fin.ext
  match a with
  | ⟨0, _⟩ => show win2_3.index t (0 : Fin 2) * 512 + 1 * k.val = k.val; rw [e0]; omega
  | ⟨1, _⟩ => show win2_3.index t (1 : Fin 2) * 64 + 1 * q.val = q.val; rw [e1]; omega

/-- The one block of the bias row is the whole row. -/
theorem blk2_4 (c : Dev nD) (t : Fin cfg2.N) (q : Fin 64) :
    (iblk2 V c 4 t : Vec Ideal S1x64 .f32) (ix2 (0 : Fin 1) q) = (V c main_v72 : S1x64.Idx → Elt Ideal .f32) (ix2 (0 : Fin 1) q) := by
  obtain ⟨-, -, -, -, -, -, -, -, e0, e1, -⟩ := idx2 t
  unfold iblk2
  rw [View.read_apply]
  show V c main_v72 _ = V c main_v72 _
  congr 1
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-- The result array after the launch, as one function of the operand arrays the launch finds. -/
abbrev G2 (c : Dev nD) : S1024x64.Idx → EReal :=
  sageK 1024 256 512 64 rfl (V c main_v49) (V c main_v60) (V c main_v69) (V c main_v71) (V c main_v72)

/-- What point t writes back is block t of that function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz_r2]
  simp only [View.ld_unit_zero (S := S1024x256) hz_r2, View.ld_unit_zero (S := S1024x1) hz_r2,
    View.ld_unit_zero (S := S512x64) hz_r2, View.ld_unit_zero (S := S1x64) hz_r2]
  rw [pay2_eq]
  obtain ⟨-, -, -, -, -, -, -, -, -, -, e50, e51⟩ := idx2 t
  have hN : cfg2.N = 1 := N_2
  have ht : t.val < 1 := by have := t.isLt; omega
  funext j
  obtain ⟨p, q, rfl⟩ : ∃ (p : Fin 1024) (q : Fin 64), j = ix2 p q := ⟨j 0, j 1, eq_ix2 j⟩
  show sageK 1024 256 512 64 rfl (iblk2 V c 0 t) (iblk2 V c 1 t) (iblk2 V c 2 t) (iblk2 V c 3 t) (iblk2 V c 4 t) (ix2 p q)
    = G2 V c (((cfg2.win 5).blk t).view.emb (ix2 p q))
  have hemb : ((cfg2.win 5).blk t).view.emb (ix2 p q)
      = ix2 (⟨t.val * 1024 + p.val, by have := p.isLt; omega⟩ : Fin 1024) q := by
    funext a
    apply Fin.ext
    match a with
    | ⟨0, _⟩ => show win2_5.index t (0 : Fin 2) * 1024 + 1 * p.val = t.val * 1024 + p.val; rw [e50]; omega
    | ⟨1, _⟩ => show win2_5.index t (1 : Fin 2) * 64 + 1 * q.val = q.val; rw [e51]; omega
  rw [hemb]
  exact sageK_row rfl _ _ _ _ _ _ _ _ _ _ p _ q (fun k => blk2_0 V c t p k _ rfl) (fun k => blk2_1 V c t p k _ rfl)
    (blk2_2 V c t p _ rfl) (fun k => blk2_3 V c t k q) (blk2_4 V c t q)

/-- Every row of the result lies in the block of the one point: row r in block r / 1024 = 0. -/
theorem cover2 (i : S1024x64.Idx) :
    ∃ t : Fin cfg2.N, (cfg2.win 5).flush t = true ∧ i ∈ ((cfg2.win 5).blk t).view.set := by
  have hN : cfg2.N = 1 := N_2
  have hi0 : (i 0).val < 1024 := (i 0).isLt
  have hi1 : (i 1).val < 64 := (i 1).isLt
  have htl : (i 0).val / 1024 < cfg2.N := by rw [hN]; omega
  obtain ⟨-, -, -, -, -, -, -, -, -, -, e50, e51⟩ := idx2 ⟨(i 0).val / 1024, htl⟩
  refine ⟨⟨(i 0).val / 1024, htl⟩, flush2_5 _, ?_⟩
  show i ∈ ((View.whole main_v73).slice (win2_5.rect ⟨(i 0).val / 1024, htl⟩)).set
  rw [View.set_slice_whole, Rect.mem_set_unit]
  intro a
  match a with
  | ⟨0, _⟩ =>
    show win2_5.index ⟨(i 0).val / 1024, htl⟩ (0 : Fin 2) * 1024 ≤ (i 0).val
      ∧ (i 0).val < win2_5.index ⟨(i 0).val / 1024, htl⟩ (0 : Fin 2) * 1024 + 1024
    rw [e50]
    show (i 0).val / 1024 * 1024 ≤ (i 0).val ∧ (i 0).val < (i 0).val / 1024 * 1024 + 1024
    omega
  | ⟨1, _⟩ =>
    show win2_5.index ⟨(i 0).val / 1024, htl⟩ (1 : Fin 2) * 64 ≤ (i 1).val
      ∧ (i 1).val < win2_5.index ⟨(i 0).val / 1024, htl⟩ (1 : Fin 2) * 64 + 64
    rw [e51]
    omega

/-- So the result array ends holding that function, whatever the buffers held when the launch began. -/
theorem final2 (c : Dev nD) : (dat2 V c).arrAt 5 cfg2.N = G2 V c :=
  (dat2 V c).arrAt_eq_of_cover 5 (G2 V c) (fun t _ => flushed2 V c t) (cover2)

end Cert.KernelIdeal.Sage

end
-- ==== Proof.KernelValue.lean ====
/-
  The idealized kernel's result is the reference's result, as functions of the sixteen arguments.

  The kernel computes the three layers one launch each, with host operations between the launches that slice the
  previous activations, gather and sum the neighbours' rows, count the neighbours, take the reciprocal of the count
  raised to one, stack the two weight matrices and lay the bias out as a row.  The reference computes the same three
  layers with host operations only.  Going down the kernel's segments: what the first launch finds in its five
  operand buffers is, buffer by buffer, the reference's slice and neighbour sum, the reciprocal column of the
  reference's degree, and the stacked weights and bias row of the same arguments; so the first launch's array is the
  reference's first activations (the kernel's arrangement of a layer is the layer).  The host operations after it then
  slice and gather from an array equal to the reference's, so the second launch finds the reference's second-layer
  operands, and so on: the last launch's array is the reference's result.  The activations the kernel keeps between
  launches in a narrower format are the same extended reals, so nothing is lost there.
-/
import proofs.«154911_j55027120997010_2_alg».proof.Proof.Gen.KernelIdeal.Frame
import proofs.«154911_j55027120997010_2_alg».proof.Proof.Gen.ReferenceIdeal.Read
import proofs.«154911_j55027120997010_2_alg».proof.Proof.SageRow
import proofs.«154911_j55027120997010_2_alg».proof.Proof.RefLayers
import proofs.«154911_j55027120997010_2_alg».proof.Proof.Region0
import proofs.«154911_j55027120997010_2_alg».proof.Proof.Region1
import proofs.«154911_j55027120997010_2_alg».proof.Proof.Region2
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Sage

open Cert.KernelIdeal Cert.KernelIdeal.Gen Cert.Sage Cert.LibLayers
open Cert.ReferenceIdeal.Read (val_main_v0 val_main_v10 val_main_v14 val_main_v26 val_main_v27 val_main_v37 val_main_v41
  val_main_v53 val_main_v54 val_main_v64 val_main_v68 val_main_v79)

/-! ## One layer: the launch's closed form on host-prepared operands is the reference's stage -/

/-- First layer. -/
theorem kernel_layer0 (X0 X1 : S67584x128.Idx → EReal) (X2 : S67584x1.Idx → EReal) (X3 : S256x256.Idx → EReal)
    (X4 : S1x256.Idx → EReal)
    (x0 : (⟨S1081344x128, .f32⟩ : BufTy).Contents (Elt Ideal)) (x1 x2 : (⟨S1013760, .i32⟩ : BufTy).Contents (Elt Ideal))
    (x7 x8 : (⟨S128x256, .f32⟩ : BufTy).Contents (Elt Ideal)) (x9 : (⟨S256, .f32⟩ : BufTy).Contents (Elt Ideal))
    (h0 : X0 = val_main_v0 (F := Ideal) x0) (h1 : X1 = val_main_v10 (F := Ideal) x0 x1 x2)
    (h2 : X2 = shapeCast S67584x1 (Host.divf (broadcastInDim S67584 ![] bcast_S_S67584 (constant (F := Ideal) S_ .f32 0x3F800000#32))
      (maximumf (val_main_v14 (F := Ideal) x2) (broadcastInDim S67584 ![] bcast_S_S67584 (constant (F := Ideal) S_ .f32 0x3F800000#32))))
      shapeCasts_S67584_S67584x1)
    (h3 : X3 = truncf (F := Ideal) .bf16 (concatenate S256x256 0 [⟨S128x256, x7⟩, ⟨S128x256, x8⟩] concatenates_S128x256_S128x256_S256x256_d0) bitsLt_bf16_f32)
    (h4 : X4 = shapeCast S1x256 x9 shapeCasts_S256_S1x256) :
    relu (sageK 67584 128 256 256 rfl X0 X1 X2 X3 X4) = val_main_v26 (F := Ideal) x0 x1 x2 x7 x8 x9 := by
  subst h0 h1 h2 h3 h4
  rw [Cert.ReferenceIdeal.Sage.layer0]
  exact congrArg relu (sageK_prep rfl _ _ (val_main_v14 (F := Ideal) x2) x7 x8 x9 bcast_S_S67584 shapeCasts_S67584_S67584x1
    concatenates_S128x256_S128x256_S256x256_d0 bitsLt_bf16_f32 shapeCasts_S256_S1x256)

/-- Second layer. -/
theorem kernel_layer1 (X0 X1 : S6144x256.Idx → EReal) (X2 : S6144x1.Idx → EReal) (X3 : S512x256.Idx → EReal)
    (X4 : S1x256.Idx → EReal)
    (x0 : (⟨S1081344x128, .f32⟩ : BufTy).Contents (Elt Ideal)) (x1 x2 : (⟨S1013760, .i32⟩ : BufTy).Contents (Elt Ideal))
    (x3 x4 : (⟨S61440, .i32⟩ : BufTy).Contents (Elt Ideal))
    (x7 x8 : (⟨S128x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (h0 : X0 = val_main_v27 (F := Ideal) x0 x1 x2 x7 x8 x9) (h1 : X1 = val_main_v37 (F := Ideal) x0 x1 x2 x3 x4 x7 x8 x9)
    (h2 : X2 = shapeCast S6144x1 (Host.divf (broadcastInDim S6144 ![] bcast_S_S6144 (constant (F := Ideal) S_ .f32 0x3F800000#32))
      (maximumf (val_main_v41 (F := Ideal) x4) (broadcastInDim S6144 ![] bcast_S_S6144 (constant (F := Ideal) S_ .f32 0x3F800000#32))))
      shapeCasts_S6144_S6144x1)
    (h3 : X3 = truncf (F := Ideal) .bf16 (concatenate S512x256 0 [⟨S256x256, x10⟩, ⟨S256x256, x11⟩] concatenates_S256x256_S256x256_S512x256_d0) bitsLt_bf16_f32)
    (h4 : X4 = shapeCast S1x256 x12 shapeCasts_S256_S1x256) :
    relu (sageK 6144 256 512 256 rfl X0 X1 X2 X3 X4) = val_main_v53 (F := Ideal) x0 x1 x2 x3 x4 x7 x8 x9 x10 x11 x12 := by
  subst h0 h1 h2 h3 h4
  rw [Cert.ReferenceIdeal.Sage.layer1]
  exact congrArg relu (sageK_prep rfl _ _ (val_main_v41 (F := Ideal) x4) x10 x11 x12 bcast_S_S6144 shapeCasts_S6144_S6144x1
    concatenates_S256x256_S256x256_S512x256_d0 bitsLt_bf16_f32 shapeCasts_S256_S1x256)

/-- Third layer (no relu). -/
theorem kernel_layer2 (X0 X1 : S1024x256.Idx → EReal) (X2 : S1024x1.Idx → EReal) (X3 : S512x64.Idx → EReal)
    (X4 : S1x64.Idx → EReal)
    (x0 : (⟨S1081344x128, .f32⟩ : BufTy).Contents (Elt Ideal)) (x1 x2 : (⟨S1013760, .i32⟩ : BufTy).Contents (Elt Ideal))
    (x3 x4 : (⟨S61440, .i32⟩ : BufTy).Contents (Elt Ideal)) (x5 x6 : (⟨S5120, .i32⟩ : BufTy).Contents (Elt Ideal))
    (x7 x8 : (⟨S128x256, .f32⟩ : BufTy).Contents (Elt Ideal)) (x9 : (⟨S256, .f32⟩ : BufTy).Contents (Elt Ideal))
    (x10 x11 : (⟨S256x256, .f32⟩ : BufTy).Contents (Elt Ideal)) (x12 : (⟨S256, .f32⟩ : BufTy).Contents (Elt Ideal))
    (x13 x14 : (⟨S256x64, .f32⟩ : BufTy).Contents (Elt Ideal)) (x15 : (⟨S64, .f32⟩ : BufTy).Contents (Elt Ideal))
    (h0 : X0 = val_main_v54 (F := Ideal) x0 x1 x2 x3 x4 x7 x8 x9 x10 x11 x12)
    (h1 : X1 = val_main_v64 (F := Ideal) x0 x1 x2 x3 x4 x5 x6 x7 x8 x9 x10 x11 x12)
    (h2 : X2 = shapeCast S1024x1 (Host.divf (broadcastInDim S1024 ![] bcast_S_S1024 (constant (F := Ideal) S_ .f32 0x3F800000#32))
      (maximumf (val_main_v68 (F := Ideal) x6) (broadcastInDim S1024 ![] bcast_S_S1024 (constant (F := Ideal) S_ .f32 0x3F800000#32))))
      shapeCasts_S1024_S1024x1)
    (h3 : X3 = truncf (F := Ideal) .bf16 (concatenate S512x64 0 [⟨S256x64, x13⟩, ⟨S256x64, x14⟩] concatenates_S256x64_S256x64_S512x64_d0) bitsLt_bf16_f32)
    (h4 : X4 = shapeCast S1x64 x15 shapeCasts_S64_S1x64) :
    sageK 1024 256 512 64 rfl X0 X1 X2 X3 X4 = val_main_v79 (F := Ideal) x0 x1 x2 x3 x4 x5 x6 x7 x8 x9 x10 x11 x12 x13 x14 x15 := by
  subst h0 h1 h2 h3 h4
  rw [Cert.ReferenceIdeal.Sage.layer2]
  exact sageK_prep rfl _ _ (val_main_v68 (F := Ideal) x6) x13 x14 x15 bcast_S_S1024 shapeCasts_S1024_S1024x1
    concatenates_S256x64_S256x64_S512x64_d0 bitsLt_bf16_f32 shapeCasts_S64_S1x64

/-! ## Down the segments -/

/-- Stacking two matrices and narrowing the stack respects equality of the two matrices. -/
theorem stacked_congr1 (a a' b b' : S256x256.Idx → EReal) (ha : a = a') (hb : b = b') :
    truncf (F := Ideal) .bf16 (concatenate S512x256 0 [⟨S256x256, a⟩, ⟨S256x256, b⟩] concatenates_S256x256_S256x256_S512x256_d0) bitsLt_bf16_f32
      = truncf (F := Ideal) .bf16 (concatenate S512x256 0 [⟨S256x256, a'⟩, ⟨S256x256, b'⟩] concatenates_S256x256_S256x256_S512x256_d0) bitsLt_bf16_f32 := by
  subst ha hb; rfl
theorem stacked_congr2 (a a' b b' : S256x64.Idx → EReal) (ha : a = a') (hb : b = b') :
    truncf (F := Ideal) .bf16 (concatenate S512x64 0 [⟨S256x64, a⟩, ⟨S256x64, b⟩] concatenates_S256x64_S256x64_S512x64_d0) bitsLt_bf16_f32
      = truncf (F := Ideal) .bf16 (concatenate S512x64 0 [⟨S256x64, a'⟩, ⟨S256x64, b'⟩] concatenates_S256x64_S256x64_S512x64_d0) bitsLt_bf16_f32 := by
  subst ha hb; rfl

variable (m : (ℓ : Loc nD τ sig) → Buf (Elt Ideal) ℓ) (ρ : Dev nD → PrngReg)

/-- The first launch's array is the reference's first activations. -/
theorem W2_v23 (c : Dev nD) :
    W2 m ρ c (Proc.devRef .tc main_v23) = val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine ((W2_arr m ρ c 5).trans (final0 (V1 m ρ) c)).trans ?_
  refine kernel_layer0 _ _ _ _ _ _ _ _ _ _ _ ?_ ?_ ?_ ?_ ?_
  · show StableHlo.after hostOps0 (W0 m ρ c) (Proc.devRef .tc main_v0) = _
    after_results_simp <;> rfl
  · show StableHlo.after hostOps0 (W0 m ρ c) (Proc.devRef .tc main_v10) = _
    after_results_simp <;> rfl
  · show StableHlo.after hostOps0 (W0 m ρ c) (Proc.devRef .tc main_v19) = _
    after_results_simp <;> rfl
  · show StableHlo.after hostOps0 (W0 m ρ c) (Proc.devRef .tc main_v21) = _
    after_results_simp <;> rfl
  · show StableHlo.after hostOps0 (W0 m ρ c) (Proc.devRef .tc main_v22) = _
    after_results_simp <;> rfl

/-- An argument buffer no segment up to the first launch writes still holds its launch contents. -/
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl
theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp <;> rfl
theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results_simp <;> rfl

set_option maxHeartbeats 1600000 in
/-- The second launch's array is the reference's second activations. -/
theorem W4_v48 (c : Dev nD) :
    W4 m ρ c (Proc.devRef .tc main_v48) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W4_arr m ρ c 5).trans (final1 (V3 m ρ) c)).trans ?_
  refine kernel_layer1 _ _ _ _ _ _ _ _ _ _ _ _ _ _ _ _ ?_ ?_ ?_ ?_ ?_
  · show StableHlo.after hostOps1 (W2 m ρ c) (Proc.devRef .tc main_v24) = _
    after_results_simp
    rw [W2_v23 m ρ c]
    rfl
  · show StableHlo.after hostOps1 (W2 m ρ c) (Proc.devRef .tc main_v35) = _
    after_results_simp
    rw [W2_v23 m ρ c, W2_arg3 m ρ c, W2_arg4 m ρ c]
    rfl
  · show StableHlo.after hostOps1 (W2 m ρ c) (Proc.devRef .tc main_v44) = _
    after_results_simp
    rw [W2_arg4 m ρ c]
    rfl
  · show StableHlo.after hostOps1 (W2 m ρ c) (Proc.devRef .tc main_v46) = _
    after_results_simp
    refine stacked_congr1 _ _ _ _ ?_ ?_
    · after_results_simp
      exact W2_arg10 m ρ c
    · after_results_simp
      exact W2_arg11 m ρ c
  · show StableHlo.after hostOps1 (W2 m ρ c) (Proc.devRef .tc main_v47) = _
    after_results_simp
    rw [W2_arg12 m ρ c]
    rfl

/-- An argument buffer no segment up to the second launch writes still holds its launch contents. -/
theorem W4_arg5 (c : Dev nD) : W4 m ρ c (Proc.devRef .tc main_arg5) = m ((c : Thread nD τ).loc main_arg5) := by
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp <;> rfl
theorem W4_arg6 (c : Dev nD) : W4 m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp <;> rfl
theorem W4_arg13 (c : Dev nD) : W4 m ρ c (Proc.devRef .tc main_arg13) = m ((c : Thread nD τ).loc main_arg13) := by
  rw [W4_of_ne m ρ c main_arg13 (by decide)]
  show StableHlo.after hostOps1 (W2 m ρ c) (Proc.devRef .tc main_arg13) = _
  after_results_simp
  rw [W2_of_ne m ρ c main_arg13 (by decide)]
  show StableHlo.after hostOps0 (W0 m ρ c) (Proc.devRef .tc main_arg13) = _
  after_results_simp <;> rfl
theorem W4_arg14 (c : Dev nD) : W4 m ρ c (Proc.devRef .tc main_arg14) = m ((c : Thread nD τ).loc main_arg14) := by
  rw [W4_of_ne m ρ c main_arg14 (by decide)]
  show StableHlo.after hostOps1 (W2 m ρ c) (Proc.devRef .tc main_arg14) = _
  after_results_simp
  rw [W2_of_ne m ρ c main_arg14 (by decide)]
  show StableHlo.after hostOps0 (W0 m ρ c) (Proc.devRef .tc main_arg14) = _
  after_results_simp <;> rfl
theorem W4_arg15 (c : Dev nD) : W4 m ρ c (Proc.devRef .tc main_arg15) = m ((c : Thread nD τ).loc main_arg15) := by
  rw [W4_of_ne m ρ c main_arg15 (by decide)]
  show StableHlo.after hostOps1 (W2 m ρ c) (Proc.devRef .tc main_arg15) = _
  after_results_simp
  rw [W2_of_ne m ρ c main_arg15 (by decide)]
  show StableHlo.after hostOps0 (W0 m ρ c) (Proc.devRef .tc main_arg15) = _
  after_results_simp <;> rfl

set_option maxHeartbeats 1600000 in
/-- The third launch's array, which is the kernel's result, is the reference's result. -/
theorem W6_v73 (c : Dev nD) :
    W6 m ρ c (Proc.devRef .tc main_v73) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W6_arr m ρ c 5).trans (final2 (V5 m ρ) c)).trans ?_
  refine kernel_layer2 _ _ _ _ _ _ _ _ _ _ _ _ _ _ _ _ _ _ _ _ _ ?_ ?_ ?_ ?_ ?_
  · show StableHlo.after hostOps2 (W4 m ρ c) (Proc.devRef .tc main_v49) = _
    after_results_simp
    rw [W4_v48 m ρ c]
    rfl
  · show StableHlo.after hostOps2 (W4 m ρ c) (Proc.devRef .tc main_v60) = _
    after_results_simp
    rw [W4_v48 m ρ c, W4_arg5 m ρ c, W4_arg6 m ρ c]
    rfl
  · show StableHlo.after hostOps2 (W4 m ρ c) (Proc.devRef .tc main_v69) = _
    after_results_simp
    rw [W4_arg6 m ρ c]
    rfl
  · show StableHlo.after hostOps2 (W4 m ρ c) (Proc.devRef .tc main_v71) = _
    after_results_simp
    refine stacked_congr2 _ _ _ _ ?_ ?_
    · after_results_simp
      exact W4_arg13 m ρ c
    · after_results_simp
      exact W4_arg14 m ρ c
  · show StableHlo.after hostOps2 (W4 m ρ c) (Proc.devRef .tc main_v72) = _
    after_results_simp
    rw [W4_arg15 m ρ c]
    rfl

end Cert.KernelIdeal.Sage

end
-- ==== Proof.lean ====
/-
  A three-layer mean-aggregating graph network: the kernel against its reference, over the extended reals.

  Each layer takes the first rows of the previous activations as the destination nodes' own features, gathers the
  source nodes' rows along the edges and sums them into their destination rows, counts each destination's edges, and
  returns   own · W_self  +  (sum / max(count, 1)) · W_neigh  +  bias,   under relu in the first two layers.  The
  reference does this with host operations.  The kernel keeps the gather and the two sums on the host and runs the
  dense part of each layer as one launch over blocks of destination rows: it multiplies the sums by the reciprocal
  1 / max(count, 1), joins own rows and scaled sums along the lanes, and takes one product with the two weight
  matrices stacked.  It also keeps the first two layers' activations in a narrower float format, which at the ideal
  values is the same extended real.

  The two programs agree because (i) x · (1 / y) = x / y for every extended real x when y ≠ 0, and max(count, 1) ≥ 1;
  (ii) a sum over 2K joined lanes is the sum over the first K plus the sum over the last K; (iii) an entry of a layer
  depends on its own row only, so the launch's blocks assemble to the layer of all rows; (iv) the host operations that
  feed the next layer are the same operations on both sides, applied to arrays already shown equal.  None of this uses
  that the inputs are finite.  The frames are the generated ones; the kernel's idealization rewrote nothing, so there
  is nothing to preserve.
-/
import proofs.«154911_j55027120997010_2_alg».proof.Defs
import proofs.«154911_j55027120997010_2_alg».proof.Proof.Gen.Kernel
import proofs.«154911_j55027120997010_2_alg».proof.Proof.Gen.Kernel.Skeleton
import proofs.«154911_j55027120997010_2_alg».proof.Proof.Gen.Kernel.Launch
import proofs.«154911_j55027120997010_2_alg».proof.Proof.Gen.Kernel.Points
import proofs.«154911_j55027120997010_2_alg».proof.Proof.Gen.Kernel.Frame
import proofs.«154911_j55027120997010_2_alg».proof.Proof.Gen.KernelIdeal
import proofs.«154911_j55027120997010_2_alg».proof.Proof.Gen.KernelIdeal.Skeleton
import proofs.«154911_j55027120997010_2_alg».proof.Proof.Gen.KernelIdeal.Launch
import proofs.«154911_j55027120997010_2_alg».proof.Proof.Gen.KernelIdeal.Points
import proofs.«154911_j55027120997010_2_alg».proof.Proof.Gen.KernelIdeal.Frame
import proofs.«154911_j55027120997010_2_alg».proof.Proof.Gen.ReferenceIdeal
import proofs.«154911_j55027120997010_2_alg».proof.Proof.Gen.Pre_finite_inputs
import proofs.«154911_j55027120997010_2_alg».proof.Proof.Gen.ReferenceIdeal.Run
import proofs.«154911_j55027120997010_2_alg».proof.Proof.Gen.ReferenceIdeal.Read
import proofs.«154911_j55027120997010_2_alg».proof.Proof.KernelRun
import proofs.«154911_j55027120997010_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, nothing faulting, and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the sixteen arguments both idealized programs end with the same result array: the
    kernel's last launch leaves the reference's last stage of the arguments in the result buffer. -/
theorem algebraic : Cert.algebraic_KernelIdeal_ReferenceIdeal := by
  intro m ρ m' ρ' _ hagree
  refine ⟨fun c => Cert.KernelIdeal.Gen.W6 m ρ c (Proc.devRef .tc Cert.KernelIdeal.main_v73),
    Cert.KernelIdeal.Sage.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v79_eq, e0, e1, e2, e3, e4, e5, e6, e7, e8, e9, e10, e11, e12, e13, e14, e15]
  exact (Cert.KernelIdeal.Sage.W6_v73 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
